-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "attn_scale" .f32 0x3D000000#32 ((1125899906842624 / 36028797030222967 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S1024x1024 : Shape := ⟨2, ![1024, 1024]⟩
abbrev S1024 : Shape := ⟨1, ![1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024 .f32) (main_arg9 : FVec F S1024 .f32) (main_arg10 : FVec F S1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024 .f32) (main_v13 : IVec S_ 1) (main_v16 : IVec S32x1024x1024 1) : IVec S_ 1 :=
  let main_c_5 : IVec S_ 1 := constantI S_ 1 1#1
  let main_v17 : IVec S_ 1 := (fun x v => Host.reduce IntOp.andi x v reducesTo_S32x1024x1024_S_d0_1_2 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32x1024x1024 .f32) (main_arg1 : FVec F S32x1024x1024 .f32) (main_arg2 : FVec F S32x1024x1024 .f32) (main_arg3 : FVec F S32x1024x1024 .f32) (main_arg4 : FVec F S1024x1024 .f32) (main_arg5 : FVec F S1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024x1024 .f32 := Host.absf main_arg2
  let main_cst_2 : FVec F S_ .f32 := constant S_ .f32 0x7F800000#32
  let main_v10 : FVec F S32x1024x1024 .f32 := broadcastInDim S32x1024x1024 ![] bcast_S_S32x1024x1024 main_cst_2
  let main_v11 : IVec S32x1024x1024 1 := cmpf .olt main_v9 main_v10
  let main_c_3 : IVec S_ 1 := constantI S_ 1 1#1
  let main_v12 : IVec S_ 1 := (fun x v => Host.reduce IntOp.andi x v reducesTo_S32x1024x1024_S_d0_1_2 h_S_) main_v11 main_c_3
  let main_v13 : IVec S_ 1 := andi main_v8 main_v12
  let main_v14 : FVec F S32x1024x1024 .f32 := Host.absf main_arg3
  let main_cst_4 : FVec F S_ .f32 := constant S_ .f32 0x7F800000#32
  let main_v15 : FVec F S32x1024x1024 .f32 := broadcastInDim S32x1024x1024 ![] bcast_S_S32x1024x1024 main_cst_4
  let main_v16 : IVec S32x1024x1024 1 := cmpf .olt main_v14 main_v15
  fn_part1 (F := F) main_arg4 main_arg5 main_arg6 main_arg7 main_arg8 main_arg9 main_arg10 main_arg11 main_v13 main_v16
-- ==== Kernel.lean ====
abbrev S32x1024x1024 : Shape := ⟨3, ![32, 1024, 1024]⟩
abbrev S1024x1024 : Shape := ⟨2, ![1024, 1024]⟩
abbrev S1024 : Shape := ⟨1, ![1024]⟩
abbrev S1x256x1024 : Shape := ⟨3, ![1, 256, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩

abbrev nBuf : Space → Nat
  | .hbm => 15
  | .vmem => 20
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .f32⟩
  | .hbm, ⟨3, _⟩ => ⟨S32x1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x1024, .bf16⟩
  | .hbm, ⟨13, _⟩ => ⟨S1024x1024, .bf16⟩
  | .hbm, ⟨14, _⟩ => ⟨S32x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x256x1024, .f32⟩
  | .local _ .vmem, ⟨7, _⟩ => ⟨S1x256x1024, .f32⟩
  | .local _ .vmem, ⟨8, _⟩ => ⟨S1024x1024, .bf16⟩
  | .local _ .vmem, ⟨9, _⟩ => ⟨S1024, .f32⟩
  | .local _ .vmem, ⟨10, _⟩ => ⟨S1024x1024, .bf16⟩
  | .local _ .vmem, ⟨11, _⟩ => ⟨S1024, .f32⟩
  | .local _ .vmem, ⟨12, _⟩ => ⟨S1024, .f32⟩
  | .local _ .vmem, ⟨13, _⟩ => ⟨S1024, .f32⟩
  | .local _ .vmem, ⟨14, _⟩ => ⟨S1024, .f32⟩
  | .local _ .vmem, ⟨15, _⟩ => ⟨S1024, .f32⟩
  | .local _ .vmem, ⟨16, _⟩ => ⟨S1x256x1024, .f32⟩
  | .local _ .vmem, ⟨17, _⟩ => ⟨S1x256x1024, .f32⟩
  | .local _ .vmem, ⟨18, _⟩ => ⟨S1024x1024, .bf16⟩
  | .local _ .vmem, ⟨19, _⟩ => ⟨S1024x1024, .bf16⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S1x256x1024 : S256x1024.ShapeCasts S1x256x1024
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x1024x1024.size a
  hwx0_0 : ∀ i : grid0.Coords, EltTy.bits .f32 = 32 ∨ (Rect.block (s := S32x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x1024x1024.size a
  hwx0_2 : ∀ i : grid0.Coords, EltTy.bits .f32 = 32 ∨ (Rect.block (s := S32x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S32x1024x1024.size a
  hwx0_3 : ∀ i : grid0.Coords, EltTy.bits .f32 = 32 ∨ (Rect.block (s := S32x1024x1024) S1x256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024.size a ≤ S1024.size a
  hwx0_11 : ∀ i : grid0.Coords, EltTy.bits .f32 = 32 ∨ (Rect.block (s := S1024) S1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256x1024.size a ≤ S32x1024x1024.size a
  hwx0_12 : ∀ i : grid0.Coords, EltTy.bits .f32 = 32 ∨ (Rect.block (s := S32x1024x1024) S1x256x1024.size (cc0_transform_12 i) (hinb0_12 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v2) S1x256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S1024x1024 : Shape := ⟨2, ![1024, 1024]⟩
abbrev S1024 : Shape := ⟨1, ![1024]⟩
abbrev S_ : Shape := ⟨0, ![]⟩
abbrev S32x1024 : Shape := ⟨2, ![32, 1024]⟩
abbrev S32x1024x1 : Shape := ⟨3, ![32, 1024, 1]⟩
abbrev S1x1x1024 : Shape := ⟨3, ![1, 1, 1024]⟩

abbrev nBuf : Space → Nat
  | .hbm => 108
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .f32⟩
  | .hbm, ⟨3, _⟩ => ⟨S32x1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32x1024x1024, .f32⟩
  | .hbm, ⟨19, _⟩ => ⟨S32x1024x1024, .f32⟩
  | .hbm, ⟨20, _⟩ => ⟨S32x1024x1024, .f32⟩
  | .hbm, ⟨21, _⟩ => ⟨S32x1024x1024, .f32⟩
  | .hbm, ⟨22, _⟩ => ⟨S_, .f32⟩
  | .hbm, ⟨23, _⟩ => ⟨S32x1024, .f32⟩
  | .hbm, ⟨24, _⟩ => ⟨S_, .f32⟩
  | .hbm, ⟨25, _⟩ => ⟨S32x1024, .f32⟩
  | .hbm, ⟨26, _⟩ => ⟨S32x1024, .f32⟩
  | .hbm, ⟨27, _⟩ => ⟨S32x1024x1, .f32⟩
  | .hbm, ⟨28, _⟩ => ⟨S32x1024x1024, .f32⟩
  | .hbm, ⟨29, _⟩ => ⟨S32x1024x1024, .f32⟩
  | .hbm, ⟨30, _⟩ => ⟨S32x1024x1024, .f32⟩
  | .hbm, ⟨31, _⟩ => ⟨S_, .f32⟩
  | .hbm, ⟨32, _⟩ => ⟨S32x1024, .f32⟩
  | .hbm, ⟨33, _⟩ => ⟨S32x1024x1, .f32⟩
  | .hbm, ⟨34, _⟩ => ⟨S32x1024x1024, .f32⟩
  | .hbm, ⟨35, _⟩ => ⟨S32x1024x1024, .f32⟩
  | .hbm, ⟨36, _⟩ => ⟨S32x1024x1024, .f32⟩
  | .hbm, ⟨37, _⟩ => ⟨S32x1024x1024, .f32⟩
  | .hbm, ⟨38, _⟩ => ⟨S_, .f32⟩
  | .hbm, ⟨39, _⟩ => ⟨S32x1024, .f32⟩
  | .hbm, ⟨40, _⟩ => ⟨S32x1024x1, .f32⟩
  | .hbm, ⟨41, _⟩ => ⟨S_, .f32⟩
  | .hbm, ⟨42, _⟩ => ⟨S32x1024x1, .f32⟩
  | .hbm, ⟨43, _⟩ => ⟨S32x1024x1, .f32⟩
  | .hbm, ⟨44, _⟩ => ⟨S32x1024x1024, .f32⟩
  | .hbm, ⟨45, _⟩ => ⟨S32x1024x1024, .f32⟩
  | .hbm, ⟨46, _⟩ => ⟨S32x1024x1024, .f32⟩
  | .hbm, ⟨47, _⟩ => ⟨S_, .f32⟩
  | .hbm, ⟨48, _⟩ => ⟨S32x1024, .f32⟩
  | .hbm, ⟨49, _⟩ => ⟨S32x1024x1, .f32⟩
  | .hbm, ⟨50, _⟩ => ⟨S_, .f32⟩
  | .hbm, ⟨51, _⟩ => ⟨S32x1024x1, .f32⟩
  | .hbm, ⟨52, _⟩ => ⟨S32x1024x1, .f32⟩
  | .hbm, ⟨53, _⟩ => ⟨S32x1024x1024, .f32⟩
  | .hbm, ⟨54, _⟩ => ⟨S32x1024x1024, .f32⟩
  | .hbm, ⟨55, _⟩ => ⟨S_, .f32⟩
  | .hbm, ⟨56, _⟩ => ⟨S32x1024x1, .f32⟩
  | .hbm, ⟨57, _⟩ => ⟨S32x1024x1, .f32⟩
  | .hbm, ⟨58, _⟩ => ⟨S32x1024x1, .f32⟩
  | .hbm, ⟨59, _⟩ => ⟨S32x1024x1024, .f32⟩
  | .hbm, ⟨60, _⟩ => ⟨S32x1024x1024, .f32⟩
  | .hbm, ⟨61, _⟩ => ⟨S1x1x1024, .f32⟩
  | .hbm, ⟨62, _⟩ => ⟨S32x1024x1024, .f32⟩
  | .hbm, ⟨63, _⟩ => ⟨S32x1024x1024, .f32⟩
  | .hbm, ⟨64, _⟩ => ⟨S1x1x1024, .f32⟩
  | .hbm, ⟨65, _⟩ => ⟨S32x1024x1024, .f32⟩
  | .hbm, ⟨66, _⟩ => ⟨S32x1024x1024, .f32⟩
  | .hbm, ⟨67, _⟩ => ⟨S32x1024x1024, .f32⟩
  | .hbm, ⟨68, _⟩ => ⟨S1x1x1024, .f32⟩
  | .hbm, ⟨69, _⟩ => ⟨S32x1024x1024, .f32⟩
  | .hbm, ⟨70, _⟩ => ⟨S32x1024x1024, .f32⟩
  | .hbm, ⟨71, _⟩ => ⟨S_, .f32⟩
  | .hbm, ⟨72, _⟩ => ⟨S32x1024x1024, .f32⟩
  | .hbm, ⟨73, _⟩ => ⟨S32x1024x1024, .f32⟩
  | .hbm, ⟨74, _⟩ => ⟨S32x1024x1024, .f32⟩
  | .hbm, ⟨75, _⟩ => ⟨S1x1x1024, .f32⟩
  | .hbm, ⟨76, _⟩ => ⟨S32x1024x1024, .f32⟩
  | .hbm, ⟨77, _⟩ => ⟨S32x1024x1024, .f32⟩
  | .hbm, ⟨78, _⟩ => ⟨S32x1024x1024, .f32⟩
  | .hbm, ⟨79, _⟩ => ⟨S_, .f32⟩
  | .hbm, ⟨80, _⟩ => ⟨S32x1024, .f32⟩
  | .hbm, ⟨81, _⟩ => ⟨S32x1024x1, .f32⟩
  | .hbm, ⟨82, _⟩ => ⟨S_, .f32⟩
  | .hbm, ⟨83, _⟩ => ⟨S32x1024x1, .f32⟩
  | .hbm, ⟨84, _⟩ => ⟨S32x1024x1, .f32⟩
  | .hbm, ⟨85, _⟩ => ⟨S32x1024x1024, .f32⟩
  | .hbm, ⟨86, _⟩ => ⟨S32x1024x1024, .f32⟩
  | .hbm, ⟨87, _⟩ => ⟨S32x1024x1024, .f32⟩
  | .hbm, ⟨88, _⟩ => ⟨S_, .f32⟩
  | .hbm, ⟨89, _⟩ => ⟨S32x1024, .f32⟩
  | .hbm, ⟨90, _⟩ => ⟨S32x1024x1, .f32⟩
  | .hbm, ⟨91, _⟩ => ⟨S_, .f32⟩
  | .hbm, ⟨92, _⟩ => ⟨S32x1024x1, .f32⟩
  | .hbm, ⟨93, _⟩ => ⟨S32x1024x1, .f32⟩
  | .hbm, ⟨94, _⟩ => ⟨S32x1024x1024, .f32⟩
  | .hbm, ⟨95, _⟩ => ⟨S32x1024x1024, .f32⟩
  | .hbm, ⟨96, _⟩ => ⟨S_, .f32⟩
  | .hbm, ⟨97, _⟩ => ⟨S32x1024x1, .f32⟩
  | .hbm, ⟨98, _⟩ => ⟨S32x1024x1, .f32⟩
  | .hbm, ⟨99, _⟩ => ⟨S32x1024x1, .f32⟩
  | .hbm, ⟨100, _⟩ => ⟨S32x1024x1024, .f32⟩
  | .hbm, ⟨101, _⟩ => ⟨S32x1024x1024, .f32⟩
  | .hbm, ⟨102, _⟩ => ⟨S1x1x1024, .f32⟩
  | .hbm, ⟨103, _⟩ => ⟨S32x1024x1024, .f32⟩
  | .hbm, ⟨104, _⟩ => ⟨S32x1024x1024, .f32⟩
  | .hbm, ⟨105, _⟩ => ⟨S1x1x1024, .f32⟩
  | .hbm, ⟨106, _⟩ => ⟨S32x1024x1024, .f32⟩
  | .hbm, ⟨107, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]

class Facts₀ : Prop where
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  bcast_S_S32x1024x1 : S_.BroadcastsInDim S32x1024x1 (![] : Fin 0 → Fin S32x1024x1.rank)
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  dot_S32x1024x1024_S32x1024x1024_S32x1024x1024_2_2_1_1_0_0_wf : DotDims.WF S32x1024x1024 S32x1024x1024 S32x1024x1024 [2] [2] [1] [1] [0] [0]
  dot_S32x1024x1024_S32x1024x1024_S32x1024x1024_2_1_1_2_0_0_wf : DotDims.WF S32x1024x1024 S32x1024x1024 S32x1024x1024 [2] [1] [1] [2] [0] [0]
  dot_S32x1024x1024_S1024x1024_S32x1024x1024_2_1_01_0_n_n_wf : DotDims.WF S32x1024x1024 S1024x1024 S32x1024x1024 [2] [1] [0, 1] [0] [] []

variable [Facts₀]

def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf
def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf

class Facts : Prop extends Facts₀ where

variable [Facts]
-- ==== Proof.RefIdx.lean ====
/-
  The reference's index maps at coordinates. Each layout operation of the reference reads its operand at an index
  computed from the result's index; at a result index given by its coordinates (b, q, d) these are: a keepdims column
  [32, 1024, 1] is read at (b, q, 0) and the per-row array [32, 1024] behind it at (b, q); a reduction over the last
  axis ranges over (b, q, k); a vector laid on the last axis is read at d; and the products read the left operand along
  row (b, q) and the right operand along key row (b, k), value column (b, ·, d) or weight row (e, ·).
-/
import proofs.«134354_j21784074125884_2_alg».proof.Proof.RefRead
import Idealize.ShloMosaic.Lib.ValueIdx

noncomputable section

namespace Cert.ReferenceIdeal.RefIdx

open Cert.ReferenceIdeal Cert.ReferenceIdeal.ReadP Idealize.ShloMosaic Idealize.ShloMosaic.ValueIdx

variable (b : Fin 32) (q d k j : Fin 1024) (u w : Fin 1)

theorem col_v11 : idx_main_v11 (ix3 b q d) = ix3 b q (0 : Fin 1) := funext fun a => Fin.ext (by match a with | ⟨0, _⟩ => rfl | ⟨1, _⟩ => rfl | ⟨2, _⟩ => rfl)
theorem col_v16 : idx_main_v16 (ix3 b q d) = ix3 b q (0 : Fin 1) := funext fun a => Fin.ext (by match a with | ⟨0, _⟩ => rfl | ⟨1, _⟩ => rfl | ⟨2, _⟩ => rfl)
theorem col_v24 : idx_main_v24 (ix3 b q d) = ix3 b q (0 : Fin 1) := funext fun a => Fin.ext (by match a with | ⟨0, _⟩ => rfl | ⟨1, _⟩ => rfl | ⟨2, _⟩ => rfl)
theorem col_v31 : idx_main_v31 (ix3 b q d) = ix3 b q (0 : Fin 1) := funext fun a => Fin.ext (by match a with | ⟨0, _⟩ => rfl | ⟨1, _⟩ => rfl | ⟨2, _⟩ => rfl)
theorem col_v36 : idx_main_v36 (ix3 b q d) = ix3 b q (0 : Fin 1) := funext fun a => Fin.ext (by match a with | ⟨0, _⟩ => rfl | ⟨1, _⟩ => rfl | ⟨2, _⟩ => rfl)
theorem col_v58 : idx_main_v58 (ix3 b q d) = ix3 b q (0 : Fin 1) := funext fun a => Fin.ext (by match a with | ⟨0, _⟩ => rfl | ⟨1, _⟩ => rfl | ⟨2, _⟩ => rfl)
theorem col_v65 : idx_main_v65 (ix3 b q d) = ix3 b q (0 : Fin 1) := funext fun a => Fin.ext (by match a with | ⟨0, _⟩ => rfl | ⟨1, _⟩ => rfl | ⟨2, _⟩ => rfl)
theorem col_v70 : idx_main_v70 (ix3 b q d) = ix3 b q (0 : Fin 1) := funext fun a => Fin.ext (by match a with | ⟨0, _⟩ => rfl | ⟨1, _⟩ => rfl | ⟨2, _⟩ => rfl)
theorem keep_v10 : idx_main_v10 (ix3 b q u) = ix2 b q := funext fun a => Fin.ext (by match a with | ⟨0, _⟩ => rfl | ⟨1, _⟩ => rfl)
theorem keep_v15 : idx_main_v15 (ix3 b q u) = ix2 b q := funext fun a => Fin.ext (by match a with | ⟨0, _⟩ => rfl | ⟨1, _⟩ => rfl)
theorem keep_v21 : idx_main_v21 (ix3 b q u) = ix2 b q := funext fun a => Fin.ext (by match a with | ⟨0, _⟩ => rfl | ⟨1, _⟩ => rfl)
theorem keep_v28 : idx_main_v28 (ix3 b q u) = ix2 b q := funext fun a => Fin.ext (by match a with | ⟨0, _⟩ => rfl | ⟨1, _⟩ => rfl)
theorem keep_v55 : idx_main_v55 (ix3 b q u) = ix2 b q := funext fun a => Fin.ext (by match a with | ⟨0, _⟩ => rfl | ⟨1, _⟩ => rfl)
theorem keep_v62 : idx_main_v62 (ix3 b q u) = ix2 b q := funext fun a => Fin.ext (by match a with | ⟨0, _⟩ => rfl | ⟨1, _⟩ => rfl)
theorem red_v14 : idx_main_v14 (ix2 b q) k = ix3 b q k := funext fun a => Fin.ext (by match a with | ⟨0, _⟩ => rfl | ⟨1, _⟩ => rfl | ⟨2, _⟩ => rfl)
theorem red_v20 : idx_main_v20 (ix2 b q) k = ix3 b q k := funext fun a => Fin.ext (by match a with | ⟨0, _⟩ => rfl | ⟨1, _⟩ => rfl | ⟨2, _⟩ => rfl)
theorem red_v27 : idx_main_v27 (ix2 b q) k = ix3 b q k := funext fun a => Fin.ext (by match a with | ⟨0, _⟩ => rfl | ⟨1, _⟩ => rfl | ⟨2, _⟩ => rfl)
theorem red_v54 : idx_main_v54 (ix2 b q) k = ix3 b q k := funext fun a => Fin.ext (by match a with | ⟨0, _⟩ => rfl | ⟨1, _⟩ => rfl | ⟨2, _⟩ => rfl)
theorem red_v61 : idx_main_v61 (ix2 b q) k = ix3 b q k := funext fun a => Fin.ext (by match a with | ⟨0, _⟩ => rfl | ⟨1, _⟩ => rfl | ⟨2, _⟩ => rfl)
theorem lane_v39 : idx_main_v39 (ix3 b q d) = ix3 (0 : Fin 1) (0 : Fin 1) d := funext fun a => Fin.ext (by match a with | ⟨0, _⟩ => rfl | ⟨1, _⟩ => rfl | ⟨2, _⟩ => rfl)
theorem lane_v42 : idx_main_v42 (ix3 b q d) = ix3 (0 : Fin 1) (0 : Fin 1) d := funext fun a => Fin.ext (by match a with | ⟨0, _⟩ => rfl | ⟨1, _⟩ => rfl | ⟨2, _⟩ => rfl)
theorem lane_v46 : idx_main_v46 (ix3 b q d) = ix3 (0 : Fin 1) (0 : Fin 1) d := funext fun a => Fin.ext (by match a with | ⟨0, _⟩ => rfl | ⟨1, _⟩ => rfl | ⟨2, _⟩ => rfl)
theorem lane_v51 : idx_main_v51 (ix3 b q d) = ix3 (0 : Fin 1) (0 : Fin 1) d := funext fun a => Fin.ext (by match a with | ⟨0, _⟩ => rfl | ⟨1, _⟩ => rfl | ⟨2, _⟩ => rfl)
theorem lane_v73 : idx_main_v73 (ix3 b q d) = ix3 (0 : Fin 1) (0 : Fin 1) d := funext fun a => Fin.ext (by match a with | ⟨0, _⟩ => rfl | ⟨1, _⟩ => rfl | ⟨2, _⟩ => rfl)
theorem lane_v76 : idx_main_v76 (ix3 b q d) = ix3 (0 : Fin 1) (0 : Fin 1) d := funext fun a => Fin.ext (by match a with | ⟨0, _⟩ => rfl | ⟨1, _⟩ => rfl | ⟨2, _⟩ => rfl)
theorem vec_v38 : idx_main_v38 (ix3 u w d) = ix1 d := funext fun a => Fin.ext (by match a with | ⟨0, _⟩ => rfl)
theorem vec_v41 : idx_main_v41 (ix3 u w d) = ix1 d := funext fun a => Fin.ext (by match a with | ⟨0, _⟩ => rfl)
theorem vec_v45 : idx_main_v45 (ix3 u w d) = ix1 d := funext fun a => Fin.ext (by match a with | ⟨0, _⟩ => rfl)
theorem vec_v50 : idx_main_v50 (ix3 u w d) = ix1 d := funext fun a => Fin.ext (by match a with | ⟨0, _⟩ => rfl)
theorem vec_v72 : idx_main_v72 (ix3 u w d) = ix1 d := funext fun a => Fin.ext (by match a with | ⟨0, _⟩ => rfl)
theorem vec_v75 : idx_main_v75 (ix3 u w d) = ix1 d := funext fun a => Fin.ext (by match a with | ⟨0, _⟩ => rfl)
theorem lhs_v3 : lidx_main_v3 (ix3 b q k) j = ix3 b q j := funext fun a => Fin.ext (by match a with | ⟨0, _⟩ => rfl | ⟨1, _⟩ => rfl | ⟨2, _⟩ => rfl)
theorem rhs_v3 : ridx_main_v3 (ix3 b q k) j = ix3 b k j := funext fun a => Fin.ext (by match a with | ⟨0, _⟩ => rfl | ⟨1, _⟩ => rfl | ⟨2, _⟩ => rfl)
theorem lhs_v18 : lidx_main_v18 (ix3 b q d) j = ix3 b q j := funext fun a => Fin.ext (by match a with | ⟨0, _⟩ => rfl | ⟨1, _⟩ => rfl | ⟨2, _⟩ => rfl)
theorem rhs_v18 : ridx_main_v18 (ix3 b q d) j = ix3 b j d := funext fun a => Fin.ext (by match a with | ⟨0, _⟩ => rfl | ⟨1, _⟩ => rfl | ⟨2, _⟩ => rfl)
theorem lhs_v44 : lidx_main_v44 (ix3 b q k) j = ix3 b q j := funext fun a => Fin.ext (by match a with | ⟨0, _⟩ => rfl | ⟨1, _⟩ => rfl | ⟨2, _⟩ => rfl)
theorem rhs_v44 : ridx_main_v44 (ix3 b q k) j = ix2 k j := funext fun a => Fin.ext (by match a with | ⟨0, _⟩ => rfl | ⟨1, _⟩ => rfl)
theorem lhs_v49 : lidx_main_v49 (ix3 b q k) j = ix3 b q j := funext fun a => Fin.ext (by match a with | ⟨0, _⟩ => rfl | ⟨1, _⟩ => rfl | ⟨2, _⟩ => rfl)
theorem rhs_v49 : ridx_main_v49 (ix3 b q k) j = ix2 k j := funext fun a => Fin.ext (by match a with | ⟨0, _⟩ => rfl | ⟨1, _⟩ => rfl)

end Cert.ReferenceIdeal.RefIdx

end
-- ==== Proof.LibRank3Host.lean ====
/-
  Host layout operations, products and reductions on rank-3 arrays, read at coordinates, for any extents.
  • a vector [c] laid on the last axis of [1, 1, c], and [1, 1, c] spread to [a, b, c]: at (p, m, f) the vector at f;
  • a per-row array [a, b] laid as [a, b, 1], and [a, b, 1] spread along the last axis to [a, b, c]: at (p, m, f) the
    value of row (p, m);
  • the host's product of [a, b, k] with a matrix, contracting the last axis against the matrix's second axis
    (entry (p, m, e) = ∑ j, lhs (p, m, j) · rhs (e, j)) or against its first axis (∑ j, lhs (p, m, j) · rhs (j, e));
  • the host's float sum and its maximum over the last axis: the initial value plus the sum, the fold of max.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibRank3Host

open Idealize.ShloMosaic Idealize.ShloMosaic.ValueIdx

variable {α : Type}

/-! ## Broadcasts -/

/-- A vector [c] laid on the last axis of [1, 1, c] reads, at (p, m, f), the vector at f. -/
theorem bcast_c_11c {c : ℕ} (x : (⟨1, ![c]⟩ : Shape).Idx → α)
    (h : (⟨1, ![c]⟩ : Shape).BroadcastsInDim ⟨3, ![1, 1, c]⟩ (![2] : Fin 1 → Fin 3)) (p m : Fin 1) (f : Fin c) :
    broadcastInDim ⟨3, ![1, 1, c]⟩ (![2] : Fin 1 → Fin 3) h x (ix3 p m f) = x (ix1 f) := by
  refine broadcastInDim_apply _ h x (ix3 p m f) (ix1 f) fun ax => ?_
  match ax with
  | ⟨0, _⟩ =>
    show f.val = if c = 1 then 0 else f.val
    split
    · have := f.isLt; omega
    · rfl

/-- [1, 1, c] spread to [a, b, c] reads, at (p, m, f), the operand at (0, 0, f). -/
theorem bcast_11c_abc {a b c : ℕ} (x : (⟨3, ![1, 1, c]⟩ : Shape).Idx → α)
    (h : (⟨3, ![1, 1, c]⟩ : Shape).BroadcastsInDim ⟨3, ![a, b, c]⟩ (![0, 1, 2] : Fin 3 → Fin 3))
    (p : Fin a) (m : Fin b) (f : Fin c) :
    broadcastInDim ⟨3, ![a, b, c]⟩ (![0, 1, 2] : Fin 3 → Fin 3) h x (ix3 p m f) = x (ix3 (0 : Fin 1) (0 : Fin 1) f) := by
  refine broadcastInDim_apply _ h x (ix3 p m f) (ix3 (0 : Fin 1) (0 : Fin 1) f) fun ax => ?_
  match ax with
  | ⟨0, _⟩ =>
    show (0 : ℕ) = if (1 : ℕ) = 1 then 0 else p.val
    rw [if_pos rfl]
  | ⟨1, _⟩ =>
    show (0 : ℕ) = if (1 : ℕ) = 1 then 0 else m.val
    rw [if_pos rfl]
  | ⟨2, _⟩ =>
    show f.val = if c = 1 then 0 else f.val
    split
    · have := f.isLt; omega
    · rfl

/-- A vector laid on the last axis and spread over the first two reads, at (p, m, f), the vector at f. -/
theorem bcast_vec_abc {a b c : ℕ} (x : (⟨1, ![c]⟩ : Shape).Idx → α)
    (h1 : (⟨1, ![c]⟩ : Shape).BroadcastsInDim ⟨3, ![1, 1, c]⟩ (![2] : Fin 1 → Fin 3))
    (h2 : (⟨3, ![1, 1, c]⟩ : Shape).BroadcastsInDim ⟨3, ![a, b, c]⟩ (![0, 1, 2] : Fin 3 → Fin 3))
    (p : Fin a) (m : Fin b) (f : Fin c) :
    broadcastInDim ⟨3, ![a, b, c]⟩ (![0, 1, 2] : Fin 3 → Fin 3) h2
        (broadcastInDim ⟨3, ![1, 1, c]⟩ (![2] : Fin 1 → Fin 3) h1 x) (ix3 p m f) = x (ix1 f) :=
  (bcast_11c_abc _ h2 p m f).trans (bcast_c_11c x h1 0 0 f)

/-- A per-row array [a, b] laid as [a, b, 1] reads, at (p, m, u), the value of row (p, m). -/
theorem bcast_ab_ab1 {a b : ℕ} (x : (⟨2, ![a, b]⟩ : Shape).Idx → α)
    (h : (⟨2, ![a, b]⟩ : Shape).BroadcastsInDim ⟨3, ![a, b, 1]⟩ (![0, 1] : Fin 2 → Fin 3))
    (p : Fin a) (m : Fin b) (u : Fin 1) :
    broadcastInDim ⟨3, ![a, b, 1]⟩ (![0, 1] : Fin 2 → Fin 3) h x (ix3 p m u) = x (ix2 p m) := by
  refine broadcastInDim_apply _ h x (ix3 p m u) (ix2 p m) fun ax => ?_
  match ax with
  | ⟨0, _⟩ =>
    show p.val = if a = 1 then 0 else p.val
    split
    · have := p.isLt; omega
    · rfl
  | ⟨1, _⟩ =>
    show m.val = if b = 1 then 0 else m.val
    split
    · have := m.isLt; omega
    · rfl

/-- [a, b, 1] spread along the last axis to [a, b, c] reads, at (p, m, f), the operand at (p, m, 0). -/
theorem bcast_ab1_abc {a b c : ℕ} (x : (⟨3, ![a, b, 1]⟩ : Shape).Idx → α)
    (h : (⟨3, ![a, b, 1]⟩ : Shape).BroadcastsInDim ⟨3, ![a, b, c]⟩ (![0, 1, 2] : Fin 3 → Fin 3))
    (p : Fin a) (m : Fin b) (f : Fin c) :
    broadcastInDim ⟨3, ![a, b, c]⟩ (![0, 1, 2] : Fin 3 → Fin 3) h x (ix3 p m f) = x (ix3 p m (0 : Fin 1)) := by
  refine broadcastInDim_apply _ h x (ix3 p m f) (ix3 p m (0 : Fin 1)) fun ax => ?_
  match ax with
  | ⟨0, _⟩ =>
    show p.val = if a = 1 then 0 else p.val
    split
    · have := p.isLt; omega
    · rfl
  | ⟨1, _⟩ =>
    show m.val = if b = 1 then 0 else m.val
    split
    · have := m.isLt; omega
    · rfl
  | ⟨2, _⟩ =>
    show (0 : ℕ) = if (1 : ℕ) = 1 then 0 else f.val
    rw [if_pos rfl]

/-! ## The host's product of a rank-3 array with a matrix -/

section Dot

variable {a b k n : ℕ} {sr : Shape} (d : DotDims ⟨3, ![a, b, k]⟩ sr ⟨3, ![a, b, n]⟩)

/-- One contracted axis. -/
theorem dot_contr_rank (hl : d.lhsContracting = [2]) : d.contr.rank = 1 := by
  rw [d.rank_contr, hl]; rfl

/-- Its extent is the left operand's last extent. -/
theorem dot_contr_size (hl : d.lhsContracting = [2]) :
    d.contr.size ⟨0, by rw [dot_contr_rank d hl]; exact Nat.one_pos⟩ = k := by
  rw [d.size_contr 0 (by rw [hl]; exact Nat.one_pos), List.getElem_of_eq hl]
  rfl

/-- The contraction index is its one coordinate. -/
def dotEquiv (hl : d.lhsContracting = [2]) : d.contr.Idx ≃ Fin k :=
  contrEquiv1 d k (dot_contr_rank d hl) (dot_contr_size d hl)

/-- The left operand is read at row (p, m), contracted position j. -/
theorem dot_lhsIdx (hl : d.lhsContracting = [2]) (hln : d.lhsNonContracting = [0, 1]) (hlb : d.lhsBatch = [])
    (p : Fin a) (m : Fin b) (e : Fin n) (j : Fin k) :
    d.lhsIdx (ix3 p m e) ((dotEquiv d hl).symm j) = ix3 p m j := by
  funext ax
  apply Fin.ext
  match ax with
  | ⟨0, _⟩ =>
    have hnb : (0 : Fin 3) ∉ d.lhsBatch := by rw [hlb]; exact List.not_mem_nil
    have hn : (0 : Fin 3) ∈ d.lhsNonContracting := by rw [hln]; exact List.mem_cons_self
    show (d.lhsIdx (ix3 p m e) ((dotEquiv d hl).symm j) (0 : Fin 3)).val = p.val
    unfold DotDims.lhsIdx
    rw [dif_neg hnb, dif_pos hn]
    simp only [Fin.val_cast]
    have key : ∀ (t : ℕ) (ht : t < (⟨3, ![a, b, n]⟩ : Shape).rank), t = 0 → ((ix3 p m e) ⟨t, ht⟩).val = p.val :=
      fun t ht h => by subst h; rfl
    exact key _ _ (by simp [hlb, hln])
  | ⟨1, _⟩ =>
    have hnb : (1 : Fin 3) ∉ d.lhsBatch := by rw [hlb]; exact List.not_mem_nil
    have hn : (1 : Fin 3) ∈ d.lhsNonContracting := by rw [hln]; exact List.mem_cons_of_mem _ List.mem_cons_self
    show (d.lhsIdx (ix3 p m e) ((dotEquiv d hl).symm j) (1 : Fin 3)).val = m.val
    unfold DotDims.lhsIdx
    rw [dif_neg hnb, dif_pos hn]
    simp only [Fin.val_cast]
    have key : ∀ (t : ℕ) (ht : t < (⟨3, ![a, b, n]⟩ : Shape).rank), t = 1 → ((ix3 p m e) ⟨t, ht⟩).val = m.val :=
      fun t ht h => by subst h; rfl
    exact key _ _ (by simp [hlb, hln])
  | ⟨2, _⟩ =>
    show (d.lhsIdx (ix3 p m e) ((dotEquiv d hl).symm j) (2 : Fin 3)).val = j.val
    rw [d.lhsIdx_val_of_single hl]
    exact contrEquiv1_symm_val d k (dot_contr_rank d hl) (dot_contr_size d hl) j

end Dot

section DotRows

variable {a b k n : ℕ} (d : DotDims ⟨3, ![a, b, k]⟩ ⟨2, ![n, k]⟩ ⟨3, ![a, b, n]⟩)

/-- A matrix contracted on its second axis is read at row e, contracted position j. -/
theorem dot_rhsIdx_rows (hl : d.lhsContracting = [2]) (hr : d.rhsContracting = [1]) (hln : d.lhsNonContracting = [0, 1])
    (hrn : d.rhsNonContracting = [0]) (hlb : d.lhsBatch = []) (hrb : d.rhsBatch = [])
    (p : Fin a) (m : Fin b) (e : Fin n) (j : Fin k) :
    d.rhsIdx (ix3 p m e) ((dotEquiv d hl).symm j) = ix2 e j := by
  funext ax
  apply Fin.ext
  match ax with
  | ⟨0, _⟩ =>
    have hnb : (0 : Fin 2) ∉ d.rhsBatch := by rw [hrb]; exact List.not_mem_nil
    have hn : (0 : Fin 2) ∈ d.rhsNonContracting := by rw [hrn]; exact List.mem_cons_self
    show (d.rhsIdx (ix3 p m e) ((dotEquiv d hl).symm j) (0 : Fin 2)).val = e.val
    unfold DotDims.rhsIdx
    rw [dif_neg hnb, dif_pos hn]
    simp only [Fin.val_cast]
    have key : ∀ (t : ℕ) (ht : t < (⟨3, ![a, b, n]⟩ : Shape).rank), t = 2 → ((ix3 p m e) ⟨t, ht⟩).val = e.val :=
      fun t ht h => by subst h; rfl
    exact key _ _ (by simp [hlb, hln, hrn])
  | ⟨1, _⟩ =>
    show (d.rhsIdx (ix3 p m e) ((dotEquiv d hl).symm j) (1 : Fin 2)).val = j.val
    rw [d.rhsIdx_val_of_single hr]
    exact contrEquiv1_symm_val d k (dot_contr_rank d hl) (dot_contr_size d hl) j

variable {φ₁ φ₂ : FTy}

/-- The host's product contracting the last axis against a matrix's second axis, at (p, m, e). -/
theorem dotGeneral_rows (hl : d.lhsContracting = [2]) (hr : d.rhsContracting = [1]) (hln : d.lhsNonContracting = [0, 1])
    (hrn : d.rhsNonContracting = [0]) (hlb : d.lhsBatch = []) (hrb : d.rhsBatch = [])
    (prec : Option ContractPrecision) (sched : HostSchedule) (lhs : FVec Ideal ⟨3, ![a, b, k]⟩ φ₁) (rhs : FVec Ideal ⟨2, ![n, k]⟩ φ₂)
    (p : Fin a) (m : Fin b) (e : Fin n) :
    FloatOps.dotGeneral d prec sched lhs rhs (ix3 p m e) = ∑ j : Fin k, lhs (ix3 p m j) * rhs (ix2 e j) := by
  rw [Ideal.dotGeneral_apply, ← Equiv.sum_comp (dotEquiv d hl).symm]
  refine Finset.sum_congr rfl fun j _ => ?_
  rw [dot_lhsIdx d hl hln hlb p m e j, dot_rhsIdx_rows d hl hr hln hrn hlb hrb p m e j]

end DotRows

section DotCols

variable {a b k n : ℕ} (d : DotDims ⟨3, ![a, b, k]⟩ ⟨2, ![k, n]⟩ ⟨3, ![a, b, n]⟩)

/-- A matrix contracted on its first axis is read at contracted position j, column e. -/
theorem dot_rhsIdx_cols (hl : d.lhsContracting = [2]) (hr : d.rhsContracting = [0]) (hln : d.lhsNonContracting = [0, 1])
    (hrn : d.rhsNonContracting = [1]) (hlb : d.lhsBatch = []) (hrb : d.rhsBatch = [])
    (p : Fin a) (m : Fin b) (e : Fin n) (j : Fin k) :
    d.rhsIdx (ix3 p m e) ((dotEquiv d hl).symm j) = ix2 j e := by
  funext ax
  apply Fin.ext
  match ax with
  | ⟨0, _⟩ =>
    show (d.rhsIdx (ix3 p m e) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_cons_self
    show (d.rhsIdx (ix3 p m e) ((dotEquiv d hl).symm j) (1 : Fin 2)).val = e.val
    unfold DotDims.rhsIdx
    rw [dif_neg hnb, dif_pos hn]
    simp only [Fin.val_cast]
    have key : ∀ (t : ℕ) (ht : t < (⟨3, ![a, b, n]⟩ : Shape).rank), t = 2 → ((ix3 p m e) ⟨t, ht⟩).val = e.val :=
      fun t ht h => by subst h; rfl
    exact key _ _ (by simp [hlb, hln, hrn])

variable {φ₁ φ₂ : FTy}

/-- The host's product contracting the last axis against a matrix's first axis, at (p, m, e). -/
theorem dotGeneral_cols (hl : d.lhsContracting = [2]) (hr : d.rhsContracting = [0]) (hln : d.lhsNonContracting = [0, 1])
    (hrn : d.rhsNonContracting = [1]) (hlb : d.lhsBatch = []) (hrb : d.rhsBatch = [])
    (prec : Option ContractPrecision) (sched : HostSchedule) (lhs : FVec Ideal ⟨3, ![a, b, k]⟩ φ₁) (rhs : FVec Ideal ⟨2, ![k, n]⟩ φ₂)
    (p : Fin a) (m : Fin b) (e : Fin n) :
    FloatOps.dotGeneral d prec sched lhs rhs (ix3 p m e) = ∑ j : Fin k, lhs (ix3 p m j) * rhs (ix2 j e) := by
  rw [Ideal.dotGeneral_apply, ← Equiv.sum_comp (dotEquiv d hl).symm]
  refine Finset.sum_congr rfl fun j _ => ?_
  rw [dot_lhsIdx d hl hln hlb p m e j, dot_rhsIdx_cols d hl hr hln hrn hlb hrb p m e j]

end DotCols

/-! ## Reductions over the last axis -/

section Reductions

variable {φ : FTy}

/-- The host's float sum over the last axis of an [a, b, c] array at (p, m): the initial value plus the sum over k of
    the operand at (p, m, k). -/
theorem hostReduceAdd_last3 {a b c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (m : Fin b) :
    Host.reduceAdd x init h' hu (ix2 p m) = init (Shape.Idx.first hu) + ∑ k : Fin c, x (ix3 p m k) :=
  (Ideal.hostReduceAdd_single h' h x (init (Shape.Idx.first hu)) (ix2 p m)).trans
    (congrArg (init (Shape.Idx.first hu) + ·) (Finset.sum_congr rfl fun k _ => congrArg x (funext fun ax => Fin.ext (by
      match ax with
      | ⟨0, _⟩ => rfl
      | ⟨1, _⟩ => rfl
      | ⟨2, _⟩ => rfl))))

/-- The host's reduce with a maximum body over the last axis of an [a, b, c] array at (p, m): the fold of max, from the
    initial value, over k of the operand at (p, m, k). -/
theorem hostReduce_max_last3 {a b c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (m : Fin b) :
    Host.reduce (FloatOps.maximumf (F := Ideal) (φ := φ)) x init h' hu (ix2 p m)
      = (Finset.univ : Finset (Fin c)).fold max (init (Shape.Idx.first hu)) (fun k => x (ix3 p m k)) :=
  (Host.reduce_eq_fold_single (FloatOps.maximumf (F := Ideal) (φ := φ)) x init h' h hu (ix2 p m)).trans
    (Finset.fold_congr fun k _ => congrArg x (funext fun ax => Fin.ext (by
      match ax with
      | ⟨0, _⟩ => rfl
      | ⟨1, _⟩ => rfl
      | ⟨2, _⟩ => rfl)))

end Reductions

end Cert.LibRank3Host

end
-- ==== Proof.Spec.lean ====
/-
  The transformer block both programs compute, one query row at a time, on the extended reals.

  For batch b and query position q, with the query row x = Q[b,q,:], the key and value matrices K[b], V[b] and the mask
  row M[b,q,:]:
    scores  s k = (sum_d x d * K k d) * scale + M k
    softmax a k = exp (s k - max s) / sum_j exp (s j - max s)        (max s: the fold of max from the starting value)
    mixed   u d = x d + sum_k a k * V k d
    norm    LN g b u d = c d * rsqrt (mean (c^2) + eps) * g d + b d   with c = u - mean u,   mean = sum / n
    hidden  h e = max (sum_d X d * W1 e d + b1 e) 0                  with X = LN g1 be1 u
    output  LN g2 be2 (fun d => (sum_e h e * W2 d e + b2 d) + X d)
  Every sum and maximum runs over the 1024 positions of a row. The constants (scale, the starting value of the maximum,
  n, eps, the rectifier's zero) are parameters: both programs supply the same values.
-/
import Idealize.ShloMosaic.PureOps.Ideal
import Idealize.ShloMosaic.Lib.ValueIdx

noncomputable section

open scoped BigOperators

namespace Cert.Spec

open Idealize.ShloMosaic Idealize.ShloMosaic.ValueIdx

/-- A row of 1024 extended reals. -/
abbrev Row := Fin 1024 → EReal
/-- A 1024 x 1024 matrix of extended reals, by rows. -/
abbrev Mat := Fin 1024 → Fin 1024 → EReal

/-- The scaled, masked scores of one query row against every key row. -/
def scoreRow (sc : EReal) (x : Row) (K : Mat) (mk : Row) : Row :=
  fun k => (∑ d, x d * K k d) * sc + mk k

/-- The maximum of a row, folded from the starting value. -/
def rowMax (start : EReal) (s : Row) : EReal := (Finset.univ : Finset (Fin 1024)).fold max start s

/-- The softmax of a row, shifted by its maximum. -/
def softmaxRow (start : EReal) (s : Row) : Row :=
  fun k => Ideal.div (Ideal.exp (s k - rowMax start s)) (∑ j, Ideal.exp (s j - rowMax start s))

/-- The query row plus the attention-weighted sum of the value rows. -/
def mixRow (x a : Row) (V : Mat) : Row := fun d => x d + ∑ k, a k * V k d

/-- A row minus its mean. -/
def centredRow (n : EReal) (u : Row) : Row := fun d => u d - Ideal.div (∑ j, u j) n

/-- A centred row c divided by its root mean square (with eps under the root), times the gain g, plus the shift b. -/
def scaleRow (n eps : EReal) (g b c : Row) : Row :=
  fun d => c d * Ideal.rsqrt (Ideal.div (∑ j, c j * c j) n + eps) * g d + b d

/-- Layer normalisation of a row with gain g and shift b. -/
def normRow (n eps : EReal) (g b u : Row) : Row := scaleRow n eps g b (centredRow n u)

/-- A linear layer x W^T + b on a row. -/
def denseRow (W : Mat) (b x : Row) : Row := fun e => (∑ d, x d * W e d) + b e

/-- The rectifier on a row. -/
def reluRow (z : EReal) (x : Row) : Row := fun e => max (x e) z

/-- The entrywise sum of two rows. -/
def addRow (x y : Row) : Row := fun d => x d + y d

/-- The normalised attention output X of one query row. -/
def attendedRow (sc start n eps : EReal) (x mk : Row) (K V : Mat) (g1 be1 : Row) : Row :=
  normRow n eps g1 be1 (mixRow x (softmaxRow start (scoreRow sc x K mk)) V)

/-- The feed-forward half: LN (W2 relu (W1 X + b1) + b2 + X). -/
def feedRow (n eps z : EReal) (W1 W2 : Mat) (b1 b2 g2 be2 X : Row) : Row :=
  normRow n eps g2 be2 (addRow (denseRow W2 b2 (reluRow z (denseRow W1 b1 X))) X)

/-- The whole block on one query row. -/
def blockRow (sc start n eps z : EReal) (x mk : Row) (K V W1 W2 : Mat) (b1 b2 g1 be1 g2 be2 : Row) : Row :=
  feedRow n eps z W1 W2 b1 b2 g2 be2 (attendedRow sc start n eps x mk K V g1 be1)

/-- Shorthands for the literal array shapes. -/
abbrev A3 := (⟨3, ![32, 1024, 1024]⟩ : Shape).Idx → EReal
abbrev A2 := (⟨2, ![1024, 1024]⟩ : Shape).Idx → EReal
abbrev A1 := (⟨1, ![1024]⟩ : Shape).Idx → EReal

/-- Row q of batch b of a [32, 1024, 1024] array. -/
def row3 (X : A3) (b : Fin 32) (q : Fin 1024) : Row := fun d => X (ix3 b q d)
/-- Batch b of a [32, 1024, 1024] array, as a matrix. -/
def mat3 (X : A3) (b : Fin 32) : Mat := fun k d => X (ix3 b k d)
/-- A [1024, 1024] array as a matrix. -/
def mat2 (W : A2) : Mat := fun e d => W (ix2 e d)
/-- A [1024] array as a row. -/
def row1 (v : A1) : Row := fun d => v (ix1 d)

/-- The result array: entry (b, q, d) is entry d of the block applied to query row (b, q). -/
def G (sc start n eps z : EReal) (Q K V M : A3) (W1 : A2) (b1 : A1) (W2 : A2) (b2 g1 be1 g2 be2 : A1) : A3 :=
  fun i => blockRow sc start n eps z (row3 Q (i 0) (i 1)) (row3 M (i 0) (i 1)) (mat3 K (i 0)) (mat3 V (i 0)) (mat2 W1) (mat2 W2)
    (row1 b1) (row1 b2) (row1 g1) (row1 be1) (row1 g2) (row1 be2) (i 2)

theorem G_ix3 (sc start n eps z : EReal) (Q K V M : A3) (W1 : A2) (b1 : A1) (W2 : A2) (b2 g1 be1 g2 be2 : A1)
    (b : Fin 32) (q d : Fin 1024) :
    G sc start n eps z Q K V M W1 b1 W2 b2 g1 be1 g2 be2 (ix3 b q d)
      = blockRow sc start n eps z (row3 Q b q) (row3 M b q) (mat3 K b) (mat3 V b) (mat2 W1) (mat2 W2)
          (row1 b1) (row1 b2) (row1 g1) (row1 be1) (row1 g2) (row1 be2) d := rfl

end Cert.Spec

end
-- ==== Proof.Consts.lean ====
/-
  The float constants the two programs spell, as the extended reals their patterns denote, and the attention scale.
  The reference computes its scale on the host as 1 / (sqrt 1024 + e) with e the f32 pattern nearest 1e-8, which is the
  dyadic 11258999 / 2^50; sqrt 1024 = 32, so the scale is the rational 2^50 / (2^55 + 11258999): the value the kernel's
  named constant denotes.
-/
import Idealize.ShloMosaic.PureOps.Ideal

noncomputable section

namespace Cert.Consts

open Idealize.ShloMosaic

/-- The constants both programs spell, by their f32 patterns: the row length n = 1024, the layer norm's eps, the starting
    value of a row maximum (the pattern of -inf), the rectifier's zero; and the attention scale as the rational the
    kernel's named constant denotes. -/
abbrev cN : EReal := Ideal.ofBits .f32 0x44800000#32
abbrev cEps : EReal := Ideal.ofBits .f32 0x3727C5AC#32
abbrev cStart : EReal := Ideal.ofBits .f32 0xFF800000#32
abbrev cZero : EReal := Ideal.ofBits .f32 0x00000000#32
abbrev cScale : EReal := ((1125899906842624 / 36028797030222967 : ℝ) : EReal)

/-- The pattern of +0.0 denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = ((1 : ℝ) : EReal) := by
  simp [Ideal.ofBits, Ideal.ieee, -EReal.coe_mul]; norm_num

/-- The pattern of 1024.0 denotes the real 1024. -/
theorem ofBits_1024 : Ideal.ofBits .f32 0x44800000#32 = ((1024 : ℝ) : EReal) := by
  simp [Ideal.ofBits, Ideal.ieee, -EReal.coe_mul]; norm_num

/-- The f32 pattern nearest 1e-8 denotes the dyadic 11258999 / 2^50. -/
theorem ofBits_eps_attn : Ideal.ofBits .f32 0x322BCC77#32 = ((11258999 / 1125899906842624 : ℝ) : EReal) := by
  simp [Ideal.ofBits, Ideal.ieee, -EReal.coe_mul]; norm_num

/-- The square root of 1024 is 32. -/
theorem sqrt_1024 : Real.sqrt 1024 = 32 := by
  rw [show (1024 : ℝ) = 32 ^ 2 by norm_num]
  exact Real.sqrt_sq (by norm_num)

/-- The reference's scale 1 / (sqrt 1024 + e), computed exactly, is the rational the kernel's named constant denotes. -/
theorem scale_eq :
    Ideal.div (Ideal.ofBits .f32 0x3F800000#32) (Ideal.sqrt (Ideal.ofBits .f32 0x44800000#32) + Ideal.ofBits .f32 0x322BCC77#32)
      = ((1125899906842624 / 36028797030222967 : ℝ) : EReal) := by
  rw [ofBits_one, ofBits_1024, ofBits_eps_attn, Ideal.sqrt_coe, if_neg (by norm_num), sqrt_1024, ← EReal.coe_add,
    Ideal.div_coe (by norm_num), ← EReal.coe_mul]
  congr 1
  norm_num

end Cert.Consts

end
-- ==== Proof.RefValue.lean ====
/-
  The reference program is the block: each of its stages, read at the coordinates (b, q, d) of a result entry, is the
  corresponding row function applied to row (b, q) of the stage before it, and so its result array is the block
  applied to every query row.
  The scale the reference computes on the host, 1 / (sqrt 1024 + e), is the rational of Consts.scale_eq. Its row maximum
  is max (-inf, fold of max from -inf), which is the fold itself; its sums start from the pattern of +0.0, which is 0.
-/
import proofs.«134354_j21784074125884_2_alg».proof.Proof.RefRead
import proofs.«134354_j21784074125884_2_alg».proof.Proof.RefIdx
import proofs.«134354_j21784074125884_2_alg».proof.Proof.LibRank3Host
import proofs.«134354_j21784074125884_2_alg».proof.Proof.Spec
import proofs.«134354_j21784074125884_2_alg».proof.Proof.Consts

set_option maxRecDepth 16384

noncomputable section

open scoped BigOperators

namespace Cert.ReferenceIdeal.RefValue

open Cert.ReferenceIdeal Cert.ReferenceIdeal.Facts₀ Cert.ReferenceIdeal.Facts Cert.ReferenceIdeal.ReadP Cert.ReferenceIdeal.RefIdx Cert.Spec Cert.Consts Idealize.ShloMosaic Idealize.ShloMosaic.ValueIdx

/-- The reference's arrays. -/
abbrev R3 := (⟨S32x1024x1024, .f32⟩ : BufTy).Contents (Elt Ideal)
abbrev R2 := (⟨S1024x1024, .f32⟩ : BufTy).Contents (Elt Ideal)
abbrev R1 := (⟨S1024, .f32⟩ : BufTy).Contents (Elt Ideal)

/-- The larger of a starting value and a fold of max from it is the fold. -/
theorem max_start_fold (s : EReal) (f : Fin 1024 → EReal) :
    max s ((Finset.univ : Finset (Fin 1024)).fold max s f) = (Finset.univ : Finset (Fin 1024)).fold max s f :=
  max_eq_right ((Finset.le_fold_max (s := (Finset.univ : Finset (Fin 1024))) (f := f) (b := s) (c := s)).mpr (Or.inl le_rfl))

/-- The scores of query row (b, q) against the keys of batch b. -/
theorem scores_apply (Q K M : R3) (b : Fin 32) (q k : Fin 1024) :
    val_main_v6 (F := Ideal) Q K M (ix3 b q k) = scoreRow cScale (row3 Q b q) (mat3 K b) (row3 M b q) k := by
  rw [val_main_v6_apply, val_main_v5_apply, val_main_v3_apply, val_main_v4_apply, val_main_v2_apply, val_main_v1_apply,
    val_main_v0_apply, val_main_cst_apply, val_main_cst_0_apply, val_main_cst_1_apply]
  simp only [Ideal.addf_def, Ideal.mulf_def, Ideal.hostDivf_def, Ideal.hostUnary_sqrt_def, Ideal.ofBits_def, Consts.scale_eq,
    lhs_v3, rhs_v3]
  rfl

/-- The reference's row maximum of the scores: the fold of max from the pattern of -inf. -/
theorem rowmax_apply (Q K M : R3) (b : Fin 32) (q : Fin 1024) :
    val_main_v7 (F := Ideal) Q K M (ix2 b q)
      = rowMax cStart (fun j => val_main_v6 (F := Ideal) Q K M (ix3 b q j)) := by
  unfold val_main_v7
  exact Cert.LibRank3Host.hostReduce_max_last3 (val_main_v6 (F := Ideal) Q K M) (val_main_cst_2 (F := Ideal))
    reducesTo_S32x1024x1024_S32x1024_d2 (by decide) h_S_ b q

/-- The row maximum laid against every entry of its row. -/
theorem bmax_apply (Q K M : R3) (b : Fin 32) (q k : Fin 1024) :
    val_main_v11 (F := Ideal) Q K M (ix3 b q k) = rowMax cStart (fun j => val_main_v6 (F := Ideal) Q K M (ix3 b q j)) := by
  rw [val_main_v11_apply, col_v11, val_main_v10_apply, keep_v10, val_main_v9_apply, val_main_v8_apply, val_main_cst_3_apply,
    rowmax_apply]
  exact max_start_fold _ _

/-- The shifted exponential of a score. -/
theorem expo_apply (Q K M : R3) (b : Fin 32) (q k : Fin 1024) :
    val_main_v13 (F := Ideal) Q K M (ix3 b q k)
      = Ideal.exp (val_main_v6 (F := Ideal) Q K M (ix3 b q k) - rowMax cStart (fun j => val_main_v6 (F := Ideal) Q K M (ix3 b q j))) := by
  rw [val_main_v13_apply, val_main_v12_apply, bmax_apply]
  rfl

/-- The row sum of the exponentials laid against every entry of its row. -/
theorem bsum_apply (Q K M : R3) (b : Fin 32) (q k : Fin 1024) :
    val_main_v16 (F := Ideal) Q K M (ix3 b q k)
      = ∑ i : Fin 1024, Ideal.exp (val_main_v6 (F := Ideal) Q K M (ix3 b q i) - rowMax cStart (fun j => val_main_v6 (F := Ideal) Q K M (ix3 b q j))) := by
  rw [val_main_v16_apply, col_v16, val_main_v15_apply, keep_v15, val_main_v14_apply, val_main_cst_4_apply]
  simp only [red_v14, expo_apply, Ideal.ofBits_def, Consts.ofBits_zero, zero_add]

/-- The attention weights of query row (b, q): the softmax of its scores. -/
theorem weights_apply (Q K M : R3) (b : Fin 32) (q k : Fin 1024) :
    val_main_v17 (F := Ideal) Q K M (ix3 b q k)
      = softmaxRow cStart (fun j => val_main_v6 (F := Ideal) Q K M (ix3 b q j)) k := by
  rw [val_main_v17_apply, expo_apply, bsum_apply]
  rfl

/-- The query row plus its attention-weighted values. -/
theorem mixed_apply (Q K V M : R3) (b : Fin 32) (q d : Fin 1024) :
    val_main_v19 (F := Ideal) Q K V M (ix3 b q d)
      = mixRow (row3 Q b q) (fun k => val_main_v17 (F := Ideal) Q K M (ix3 b q k)) (mat3 V b) d := by
  simp only [val_main_v19_apply, val_main_v18_apply, lhs_v18, rhs_v18, Ideal.addf_def]
  rfl

/-- The first layer norm, on row (b, q) of the mixed array. -/
theorem norm1_apply (Q K V M : R3) (g1 be1 : R1) (b : Fin 32) (q d : Fin 1024) :
    val_main_v43 (F := Ideal) Q K V M g1 be1 (ix3 b q d)
      = normRow cN cEps (row1 g1) (row1 be1) (fun j => val_main_v19 (F := Ideal) Q K V M (ix3 b q j)) d := by
  simp only [val_main_v43_apply, val_main_v42_apply, val_main_v41_apply, val_main_v40_apply, val_main_v39_apply, val_main_v38_apply,
    val_main_v37_apply, val_main_v36_apply, val_main_v35_apply, val_main_v34_apply, val_main_v33_apply, val_main_v32_apply,
    val_main_v31_apply, val_main_v30_apply, val_main_v29_apply, val_main_v28_apply, val_main_v27_apply, val_main_v26_apply,
    val_main_v25_apply, val_main_v24_apply, val_main_v23_apply, val_main_v22_apply, val_main_v21_apply, val_main_v20_apply,
    val_main_cst_5_apply, val_main_cst_6_apply, val_main_cst_7_apply, val_main_cst_8_apply, val_main_cst_9_apply,
    lane_v42, vec_v41, lane_v39, vec_v38, col_v36, col_v31, keep_v28, red_v27, col_v24, keep_v21, red_v20,
    Ideal.addf_def, Ideal.mulf_def, Ideal.subf_def, Ideal.hostDivf_def, Ideal.hostUnary_rsqrt_def, Ideal.ofBits_def,
    Consts.ofBits_zero, zero_add]
  rfl

/-- The hidden layer: the rectified first linear layer on row (b, q). -/
theorem hidden_apply (Q K V M : R3) (W1 : R2) (b1 g1 be1 : R1) (b : Fin 32) (q e : Fin 1024) :
    val_main_v48 (F := Ideal) Q K V M W1 b1 g1 be1 (ix3 b q e)
      = reluRow cZero (denseRow (mat2 W1) (row1 b1) (fun d => val_main_v43 (F := Ideal) Q K V M g1 be1 (ix3 b q d))) e := by
  simp only [val_main_v48_apply, val_main_v47_apply, val_main_v46_apply, val_main_v45_apply, val_main_v44_apply,
    val_main_call0_v0_apply, val_main_call0_cst_apply, lane_v46, vec_v45, lhs_v44, rhs_v44,
    Ideal.addf_def, Ideal.maximumf_def, Ideal.ofBits_def]
  rfl

/-- The second linear layer plus the residual, on row (b, q). -/
theorem resid_apply (Q K V M : R3) (W1 : R2) (b1 : R1) (W2 : R2) (b2 g1 be1 : R1) (b : Fin 32) (q d : Fin 1024) :
    val_main_v53 (F := Ideal) Q K V M W1 b1 W2 b2 g1 be1 (ix3 b q d)
      = addRow (denseRow (mat2 W2) (row1 b2) (fun e => val_main_v48 (F := Ideal) Q K V M W1 b1 g1 be1 (ix3 b q e)))
          (fun j => val_main_v43 (F := Ideal) Q K V M g1 be1 (ix3 b q j)) d := by
  simp only [val_main_v53_apply, val_main_v52_apply, val_main_v51_apply, val_main_v50_apply, val_main_v49_apply,
    lane_v51, vec_v50, lhs_v49, rhs_v49, Ideal.addf_def]
  rfl

/-- The second layer norm, on row (b, q). -/
theorem norm2_apply (Q K V M : R3) (W1 : R2) (b1 : R1) (W2 : R2) (b2 g1 be1 g2 be2 : R1) (b : Fin 32) (q d : Fin 1024) :
    val_main_v77 (F := Ideal) Q K V M W1 b1 W2 b2 g1 be1 g2 be2 (ix3 b q d)
      = normRow cN cEps (row1 g2) (row1 be2) (fun j => val_main_v53 (F := Ideal) Q K V M W1 b1 W2 b2 g1 be1 (ix3 b q j)) d := by
  simp only [val_main_v77_apply, val_main_v76_apply, val_main_v75_apply, val_main_v74_apply, val_main_v73_apply, val_main_v72_apply,
    val_main_v71_apply, val_main_v70_apply, val_main_v69_apply, val_main_v68_apply, val_main_v67_apply, val_main_v66_apply,
    val_main_v65_apply, val_main_v64_apply, val_main_v63_apply, val_main_v62_apply, val_main_v61_apply, val_main_v60_apply,
    val_main_v59_apply, val_main_v58_apply, val_main_v57_apply, val_main_v56_apply, val_main_v55_apply, val_main_v54_apply,
    val_main_cst_10_apply, val_main_cst_11_apply, val_main_cst_12_apply, val_main_cst_13_apply, val_main_cst_14_apply,
    lane_v76, vec_v75, lane_v73, vec_v72, col_v70, col_v65, keep_v62, red_v61, col_v58, keep_v55, red_v54,
    Ideal.addf_def, Ideal.mulf_def, Ideal.subf_def, Ideal.hostDivf_def, Ideal.hostUnary_rsqrt_def, Ideal.ofBits_def,
    Consts.ofBits_zero, zero_add]
  rfl

/-- The reference's result array is the block applied to every query row. -/
theorem result_eq (Q K V M : R3) (W1 : R2) (b1 : R1) (W2 : R2) (b2 g1 be1 g2 be2 : R1) :
    val_main_v77 (F := Ideal) Q K V M W1 b1 W2 b2 g1 be1 g2 be2
      = G cScale cStart cN cEps cZero Q K V M W1 b1 W2 b2 g1 be1 g2 be2 := by
  funext i
  obtain ⟨b, q, d, rfl⟩ : ∃ (b : Fin 32) (q d : Fin 1024), i = ix3 b q d := ⟨i 0, i 1, i 2, eq_ix3 i⟩
  rw [norm2_apply, G_ix3]
  simp only [resid_apply, hidden_apply, norm1_apply, mixed_apply, weights_apply, scores_apply]
  rfl

end Cert.ReferenceIdeal.RefValue

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibRowReduce.lean ====
/-
  A matrix reduced along its rows, and small values spread over a block, read at coordinates for any extents.
  • REDUCTIONS over the extended reals of an `[a, b]` vector along its LAST axis, one value per row: the sum at row `p`
    is the sum over `k` of the source at `(p, k)`, and the maximum is the fold of `max`, from the starting word's value,
    over `k` of the source at `(p, k)` (`multiReduction_add_rows`, `multiReduction_max_rows`) — what a softmax along
    the lanes of a row needs.
  • A ROW VECTOR GIVEN TWO UNIT AXES: `[1, c] → [1, 1, c]` reads `(0, 0, f)` at `(0, f)` (`shapeCast_1c_11c_apply`).
  • ONE VALUE SPREAD OVER A MATRIX: `[1, 1] → [a, b]` reads the one entry everywhere (`broadcastTo_11_ab_apply`).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {α : Type}

/-- A `[1, c]` row cast to `[1, 1, c]` reads, at `(u, v, f)`, the operand at `(0, f)`. -/
theorem shapeCast_1c_11c_apply {c : ℕ} (x : (⟨2, ![1, c]⟩ : Shape).Idx → α)
    (h : (⟨2, ![1, c]⟩ : Shape).ShapeCasts ⟨3, ![1, 1, c]⟩) (u v : Fin 1) (f : Fin c) :
    shapeCast ⟨3, ![1, 1, c]⟩ x h (ix3 u v f) = x (ix2 (0 : Fin 1) f) :=
  shapeCast_apply x h _ _ (by
    have hu : u.val = 0 := by omega
    have hv : v.val = 0 := by omega
    rw [Shape.rowMajor_val_three, Shape.rowMajor_val_two]
    show 0 * c + f.val = (u.val * 1 + v.val) * c + f.val
    rw [hu, hv])

/-- A `[1, 1]` array spread to `[a, b]` reads its one entry at every `(p, q)`. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

section Reductions
variable {φ : FTy}

/-- A sum along the rows of an `[a, b]` vector: at row `p`, the sum over `k` of the source at `(p, k)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A maximum along the rows of an `[a, b]` vector: at row `p`, the fold of `max`, from the starting word's value, over
    `k` of the source at `(p, k)`. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (Finset.fold_congr fun k _ => congrArg src (funext fun ax => Fin.ext (by
      match ax with
      | ⟨0, _⟩ => rfl
      | ⟨1, _⟩ => rfl)))

end Reductions

end Cert.LibRowReduce

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibMatmulLastAxes.lean ====
/-
  A matrix product of two rank-2 arrays that contracts the LAST axis of both operands, read at coordinates.
  For dimension numbers that contract the left operand's second axis against the right operand's second axis, keep the
  left rows and the right rows and have no batch axis (lhs [a, k], rhs [b, k], result [a, b]: lhs · rhsᵀ without a
  transpose), the entry (p, q) of the product is the sum over the contracted position j of lhs (p, j) · rhs (q, j): the
  inner product of row p of the left operand with row q of the right. Both the matrix unit's product into a zero
  accumulator and the host's dot product are that sum on the extended reals.
-/
import Idealize.ShloMosaic.Lib.ValueIdx
import Idealize.ShloMosaic.PureOps.Ideal.Laws

open scoped BigOperators

namespace Cert.LibMatmulLastAxes

open Idealize.ShloMosaic Idealize.ShloMosaic.ValueIdx

variable {a k b : ℕ} (d : DotDims ⟨2, ![a, k]⟩ ⟨2, ![b, k]⟩ ⟨2, ![a, b]⟩)

/-- One contracted axis. -/
theorem contr_rank (hl : d.lhsContracting = [1]) : d.contr.rank = 1 := by
  rw [d.rank_contr, hl]; rfl

/-- Its extent is the shared inner extent k. -/
theorem contr_size (hl : d.lhsContracting = [1]) :
    d.contr.size ⟨0, by rw [contr_rank d hl]; exact Nat.one_pos⟩ = k := by
  rw [d.size_contr 0 (by rw [hl]; exact Nat.one_pos), List.getElem_of_eq hl]
  rfl

/-- The contraction index is its one coordinate. -/
noncomputable def contrEquiv (hl : d.lhsContracting = [1]) : d.contr.Idx ≃ Fin k :=
  contrEquiv1 d k (contr_rank d hl) (contr_size d hl)

/-- The left operand is read at row p, contracted position j. -/
theorem lhsIdx_ix2 (hl : d.lhsContracting = [1]) (hln : d.lhsNonContracting = [0]) (hlb : d.lhsBatch = [])
    (p : Fin a) (q : Fin b) (j : Fin k) :
    d.lhsIdx (ix2 p q) ((contrEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((contrEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((contrEquiv d hl).symm j) (1 : Fin 2)).val = j.val
    rw [d.lhsIdx_val_of_single hl]
    exact contrEquiv1_symm_val d k (contr_rank d hl) (contr_size d hl) j

/-- The right operand is read at row q, contracted position j. -/
theorem rhsIdx_ix2 (hl : d.lhsContracting = [1]) (hr : d.rhsContracting = [1]) (hln : d.lhsNonContracting = [0])
    (hrn : d.rhsNonContracting = [0]) (hlb : d.lhsBatch = []) (hrb : d.rhsBatch = [])
    (p : Fin a) (q : Fin b) (j : Fin k) :
    d.rhsIdx (ix2 p q) ((contrEquiv d hl).symm j) = ix2 q j := by
  funext ax
  apply Fin.ext
  match ax with
  | ⟨0, _⟩ =>
    have hnb : (0 : Fin 2) ∉ d.rhsBatch := by rw [hrb]; exact List.not_mem_nil
    have hn : (0 : Fin 2) ∈ d.rhsNonContracting := by rw [hrn]; exact List.mem_singleton.mpr rfl
    show (d.rhsIdx (ix2 p q) ((contrEquiv d hl).symm j) (0 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])
  | ⟨1, _⟩ =>
    show (d.rhsIdx (ix2 p q) ((contrEquiv d hl).symm j) (1 : Fin 2)).val = j.val
    rw [d.rhsIdx_val_of_single hr]
    exact contrEquiv1_symm_val d k (contr_rank d hl) (contr_size d hl) j

variable {φ₁ φ₂ : FTy}

/-- The matrix unit's product into the zero accumulator, at (p, q). -/
theorem matmul_zero_rows (hl : d.lhsContracting = [1]) (hr : d.rhsContracting = [1]) (hln : d.lhsNonContracting = [0])
    (hrn : d.rhsNonContracting = [0]) (hlb : d.lhsBatch = []) (hrb : d.rhsBatch = [])
    (prec : Option ContractPrecision) (lhs : FVec Ideal ⟨2, ![a, k]⟩ φ₁) (rhs : FVec Ideal ⟨2, ![b, k]⟩ φ₂)
    (p : Fin a) (q : Fin b) :
    FloatOps.matmul d prec lhs rhs (constant ⟨2, ![a, b]⟩ .f32 0x00000000#32) (ix2 p q)
      = ∑ j : Fin k, lhs (ix2 p j) * rhs (ix2 q j) := by
  rw [Ideal.matmul_constant_zero_apply, ← Equiv.sum_comp (contrEquiv d hl).symm]
  refine Finset.sum_congr rfl fun j _ => ?_
  rw [lhsIdx_ix2 d hl hln hlb p q j, rhsIdx_ix2 d hl hr hln hrn hlb hrb p q j]

/-- The host's dot product, at (p, q). -/
theorem dotGeneral_rows (hl : d.lhsContracting = [1]) (hr : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![a, k]⟩ φ₁) (rhs : FVec Ideal ⟨2, ![b, k]⟩ φ₂)
    (p : Fin a) (q : Fin b) :
    FloatOps.dotGeneral d prec sched lhs rhs (ix2 p q) = ∑ j : Fin k, lhs (ix2 p j) * rhs (ix2 q j) := by
  rw [Ideal.dotGeneral_apply, ← Equiv.sum_comp (contrEquiv d hl).symm]
  refine Finset.sum_congr rfl fun j _ => ?_
  rw [lhsIdx_ix2 d hl hln hlb p q j, rhsIdx_ix2 d hl hr hln hrn hlb hrb p q j]

end Cert.LibMatmulLastAxes
-- ==== Proof.TileOps.lean ====
/-
  The kernel's operations on a [256, 1024] tile, read at a coordinate (p, d), on the extended reals.
  A row reduction cast to a column and spread back along the row gives every entry of row p that row's value: the sum,
  the maximum (the fold of max from the starting pattern's value), the mean (sum / n) and the inverse root
  rsqrt (sum / n + e). A [1024] vector viewed as one row and spread down the tile gives entry d at (p, d). The two
  matrix products into a zero accumulator are sums over the contracted position: rows against rows for the products
  with the key matrix and the two weight matrices (lhs (p, j) * rhs (k, j)), rows against columns for the product with
  the value matrix (lhs (p, j) * rhs (j, d)). Each statement spells the operation with the printed program's own shape facts, so it
  meets the printed term as it stands.
-/
import proofs.«134354_j21784074125884_2_alg».proof.Proof.Gen.KernelIdeal
import proofs.«134354_j21784074125884_2_alg».proof.Proof.LibColumns
import proofs.«134354_j21784074125884_2_alg».proof.Proof.LibRowReduce
import proofs.«134354_j21784074125884_2_alg».proof.Proof.LibMatmul
import proofs.«134354_j21784074125884_2_alg».proof.Proof.LibMatmulLastAxes
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Facts₀ Cert.KernelIdeal.Facts Idealize.ShloMosaic Idealize.ShloMosaic.ValueIdx

variable (v : FVec Ideal S256x1024 .f32) (p : Fin 256) (d : Fin 1024)

/-- A row sum spread back along its row. -/
theorem rowsum_col :
    broadcastTo S256x1024 (shapeCast S256x1 (multiReduction .add [1] S256 v 0x00000000#32 reduces_S256x1024_S256 (.inl rfl) rfl)
        shapeCasts_S256_S256x1) broadcasts_S256x1_S256x1024 (ix2 p d)
      = ∑ k : Fin 1024, v (ix2 p k) :=
  (broadcastTo_column_apply _ shapeCasts_S256_S256x1 broadcasts_S256x1_S256x1024 p d).trans
    (Cert.LibRowReduce.multiReduction_add_rows v _ reduces_S256x1024_S256 (.inl rfl) rfl p)

/-- A row maximum spread back along its row. -/
theorem rowmax_col :
    broadcastTo S256x1024 (shapeCast S256x1 (multiReduction .maximumf [1] S256 v 0xFF800000#32 reduces_S256x1024_S256 (.inl rfl) rfl)
        shapeCasts_S256_S256x1) broadcasts_S256x1_S256x1024 (ix2 p d)
      = (Finset.univ : Finset (Fin 1024)).fold max (Ideal.ofBits .f32 0xFF800000#32) (fun k => v (ix2 p k)) :=
  (broadcastTo_column_apply _ shapeCasts_S256_S256x1 broadcasts_S256x1_S256x1024 p d).trans
    (Cert.LibRowReduce.multiReduction_max_rows v _ reduces_S256x1024_S256 (.inl rfl) rfl p)

/-- A row mean (sum / n) spread back along its row. -/
theorem mean_col (n : Ideal .f32) :
    broadcastTo S256x1024 (divf (shapeCast S256x1 (multiReduction .add [1] S256 v 0x00000000#32 reduces_S256x1024_S256 (.inl rfl) rfl)
        shapeCasts_S256_S256x1) (broadcast S256x1 n)) broadcasts_S256x1_S256x1024 (ix2 p d)
      = Ideal.div (∑ k : Fin 1024, v (ix2 p k)) n :=
  (broadcastTo_a1_ab_apply _ broadcasts_S256x1_S256x1024 p d).trans
    (congrArg (fun t => Ideal.div t n)
      ((shapeCast_a_a1_apply _ shapeCasts_S256_S256x1 p 0).trans
        (Cert.LibRowReduce.multiReduction_add_rows v _ reduces_S256x1024_S256 (.inl rfl) rfl p)))

/-- The inverse root rsqrt (sum / n + e) of a row spread back along its row. -/
theorem rstd_col (n e : Ideal .f32) :
    broadcastTo S256x1024 (rsqrt (addf (divf (shapeCast S256x1 (multiReduction .add [1] S256 v 0x00000000#32 reduces_S256x1024_S256 (.inl rfl) rfl)
        shapeCasts_S256_S256x1) (broadcast S256x1 n)) (broadcast S256x1 e))) broadcasts_S256x1_S256x1024 (ix2 p d)
      = Ideal.rsqrt (Ideal.div (∑ k : Fin 1024, v (ix2 p k)) n + e) :=
  (broadcastTo_a1_ab_apply _ broadcasts_S256x1_S256x1024 p d).trans
    (congrArg (fun t => Ideal.rsqrt (Ideal.div t n + e))
      ((shapeCast_a_a1_apply _ shapeCasts_S256_S256x1 p 0).trans
        (Cert.LibRowReduce.multiReduction_add_rows v _ reduces_S256x1024_S256 (.inl rfl) rfl p)))

/-- A [1024] vector viewed as one row and spread down the tile. -/
theorem vec_row (g : Vec Ideal S1024 .f32) :
    broadcastTo S256x1024 (shapeCast S1x1024 g shapeCasts_S1024_S1x1024 : FVec Ideal S1x1024 .f32) broadcasts_S1x1024_S256x1024 (ix2 p d)
      = g (ix1 d) :=
  (broadcastTo_1b_ab_apply _ broadcasts_S1x1024_S256x1024 p d).trans (shapeCast_a_1a_apply g shapeCasts_S1024_S1x1024 0 d)

/-- A [1024] vector viewed as one row. -/
theorem row_of_vec (g : Vec Ideal S1024 .f32) (u : Fin 1) :
    (shapeCast S1x1024 g shapeCasts_S1024_S1x1024 : FVec Ideal S1x1024 .f32) (ix2 u d) = g (ix1 d) :=
  shapeCast_a_1a_apply g shapeCasts_S1024_S1x1024 u d

/-- A [1, 1024] row spread down the tile. -/
theorem row_bcast (g : FVec Ideal S1x1024 .f32) :
    broadcastTo S256x1024 g broadcasts_S1x1024_S256x1024 (ix2 p d) = g (ix2 (0 : Fin 1) d) :=
  broadcastTo_1b_ab_apply g broadcasts_S1x1024_S256x1024 p d

/-- The [1, 256, 1024] block viewed as the [256, 1024] tile. -/
theorem tile_of_block (x : Vec Ideal S1x256x1024 .f32) :
    (shapeCast S256x1024 x shapeCasts_S1x256x1024_S256x1024 : FVec Ideal S256x1024 .f32) (ix2 p d) = x (ix3 (0 : Fin 1) p d) :=
  shapeCast_1ab_ab_apply x shapeCasts_S1x256x1024_S256x1024 p d

/-- The [256, 1024] tile viewed as the [1, 256, 1024] block. -/
theorem block_of_tile (u : Fin 1) :
    (shapeCast S1x256x1024 v shapeCasts_S256x1024_S1x256x1024 : FVec Ideal S1x256x1024 .f32) (ix3 u p d) = v (ix2 p d) :=
  shapeCast_ab_1ab_apply v shapeCasts_S256x1024_S1x256x1024 u p d

/-- The product of a tile with a matrix's rows (both contracted along their last axis), into a zero accumulator. -/
theorem rows_product (a : FVec Ideal S256x1024 .bf16) (b : FVec Ideal S1024x1024 .bf16) (k : Fin 1024) :
    matmul dot_S256x1024_S1024x1024_S256x1024_1_1_0_0_n_n none a b (constant S256x1024 .f32 0x00000000#32) (ix2 p k)
      = ∑ j : Fin 1024, a (ix2 p j) * b (ix2 k j) :=
  Cert.LibMatmulLastAxes.matmul_zero_rows dot_S256x1024_S1024x1024_S256x1024_1_1_0_0_n_n rfl rfl rfl rfl rfl rfl none a b p k

/-- The product of a tile with a matrix's columns, into a zero accumulator. -/
theorem cols_product (a : FVec Ideal S256x1024 .bf16) (b : FVec Ideal S1024x1024 .bf16) :
    matmul dot_S256x1024_S1024x1024_S256x1024_1_0_0_1_n_n none a b (constant S256x1024 .f32 0x00000000#32) (ix2 p d)
      = ∑ j : Fin 1024, a (ix2 p j) * b (ix2 j d) :=
  matmul_zero_ix2 dot_S256x1024_S1024x1024_S256x1024_1_0_0_1_n_n rfl rfl rfl rfl rfl rfl none a b p d

end Cert.KernelIdeal.Tile

end
-- ==== Proof.TileLayers.lean ====
/-
  The stages of the kernel's tile computation as functions of rows. Row p of each stage's [256, 1024] result is a row
  function of row p of the stage before it: the scaled, masked scores of the query row against the key matrix; their
  softmax; the query row plus the weighted value rows; a row minus its mean; a centred row times its inverse root mean
  square, times a gain row, plus a shift row; a linear layer x W^T + b; the rectifier; an entrywise sum. Narrowing to
  bf16 on the way into a product is the identity on the extended reals.
-/
import proofs.«134354_j21784074125884_2_alg».proof.Proof.TileOps
import proofs.«134354_j21784074125884_2_alg».proof.Proof.Spec
import proofs.«134354_j21784074125884_2_alg».proof.Proof.Consts

noncomputable section

open scoped BigOperators

namespace Cert.KernelIdeal.Tile

open Cert.KernelIdeal Cert.KernelIdeal.Facts₀ Cert.KernelIdeal.Facts Cert.Spec Cert.Consts Idealize.ShloMosaic Idealize.ShloMosaic.ValueIdx

/-- Row p of a [256, 1024] tile. -/
def tileRow (v : FVec Ideal S256x1024 .f32) (p : Fin 256) : Row := fun d => v (ix2 p d)
/-- Row p of a [1, 256, 1024] block. -/
def blockRowOf (x : Vec Ideal S1x256x1024 .f32) (p : Fin 256) : Row := fun d => x (ix3 (0 : Fin 1) p d)
/-- A [1024, 1024] buffer as a matrix, by rows. -/
def matOf (w : FVec Ideal S1024x1024 .bf16) : Mat := fun k d => w (ix2 k d)
/-- A [1024] buffer as a row. -/
def vecOf (g : Vec Ideal S1024 .f32) : Row := fun d => g (ix1 d)
/-- The one row of a [1, 1024] value. -/
def rowOf (g : FVec Ideal S1x1024 .f32) : Row := fun d => g (ix2 (0 : Fin 1) d)

theorem exp_apply {s : Shape} {φ : FTy} (v : FVec Ideal s φ) (i : s.Idx) : exp v i = Ideal.exp (v i) := rfl

variable (p : Fin 256)

/-- The scores: the query tile against the key matrix's rows, scaled, plus the mask tile. -/
theorem scores_row (q mk : Vec Ideal S1x256x1024 .f32) (kk : FVec Ideal S1024x1024 .bf16) (c : Ideal .f32) :
    tileRow (addf (mulf (matmul dot_S256x1024_S1024x1024_S256x1024_1_1_0_0_n_n none
        (truncf .bf16 (shapeCast S256x1024 q shapeCasts_S1x256x1024_S256x1024 : FVec Ideal S256x1024 .f32) bitsLt_bf16_f32) kk (constant S256x1024 .f32 0x00000000#32))
        (broadcast S256x1024 c)) (shapeCast S256x1024 mk shapeCasts_S1x256x1024_S256x1024)) p
      = scoreRow c (blockRowOf q p) (matOf kk) (blockRowOf mk p) := by
  funext k
  simp only [tileRow, addf_apply, mulf_apply, broadcast_apply, rows_product, truncf_apply, tile_of_block]
  rfl

/-- The softmax of each row of a tile, shifted by the row's maximum. -/
theorem softmax_row (s : FVec Ideal S256x1024 .f32) :
    tileRow (divf (exp (subf s (broadcastTo S256x1024 (shapeCast S256x1 (multiReduction .maximumf [1] S256 s 0xFF800000#32 reduces_S256x1024_S256 (.inl rfl) rfl) shapeCasts_S256_S256x1) broadcasts_S256x1_S256x1024))) (broadcastTo S256x1024 (shapeCast S256x1 (multiReduction .add [1] S256 (exp (subf s (broadcastTo S256x1024 (shapeCast S256x1 (multiReduction .maximumf [1] S256 s 0xFF800000#32 reduces_S256x1024_S256 (.inl rfl) rfl) shapeCasts_S256_S256x1) broadcasts_S256x1_S256x1024))) 0x00000000#32 reduces_S256x1024_S256 (.inl rfl) rfl) shapeCasts_S256_S256x1) broadcasts_S256x1_S256x1024)) p
      = softmaxRow cStart (tileRow s p) := by
  funext k
  unfold tileRow softmaxRow rowMax
  rw [divf_apply, exp_apply, subf_apply, rowmax_col, rowsum_col]
  refine congrArg _ (Finset.sum_congr rfl fun j _ => ?_)
  rw [exp_apply, subf_apply, rowmax_col]

/-- The query tile plus the weights times the value matrix. -/
theorem mix_row (q : Vec Ideal S1x256x1024 .f32) (a : FVec Ideal S256x1024 .f32) (vv : FVec Ideal S1024x1024 .bf16) :
    tileRow (addf (shapeCast S256x1024 q shapeCasts_S1x256x1024_S256x1024)
        (matmul dot_S256x1024_S1024x1024_S256x1024_1_0_0_1_n_n none (truncf .bf16 a bitsLt_bf16_f32) vv (constant S256x1024 .f32 0x00000000#32))) p
      = mixRow (blockRowOf q p) (tileRow a p) (matOf vv) := by
  funext d
  simp only [tileRow, addf_apply, cols_product, truncf_apply, tile_of_block]
  rfl

/-- A tile minus its row means. -/
theorem centre_row (u : FVec Ideal S256x1024 .f32) (n : Ideal .f32) :
    tileRow (subf u (broadcastTo S256x1024 (divf (shapeCast S256x1 (multiReduction .add [1] S256 u 0x00000000#32 reduces_S256x1024_S256 (.inl rfl) rfl) shapeCasts_S256_S256x1) (broadcast S256x1 n)) broadcasts_S256x1_S256x1024)) p = centredRow n (tileRow u p) := by
  funext d
  unfold tileRow centredRow
  rw [subf_apply, mean_col]

/-- A centred tile times its rows' inverse root mean square, times a gain row, plus a shift row. -/
theorem scale_row (c : FVec Ideal S256x1024 .f32) (g b : FVec Ideal S1x1024 .f32) (n e : Ideal .f32) :
    tileRow (addf (mulf (mulf c (broadcastTo S256x1024 (rsqrt (addf (divf (shapeCast S256x1 (multiReduction .add [1] S256 (mulf c c) 0x00000000#32 reduces_S256x1024_S256 (.inl rfl) rfl) shapeCasts_S256_S256x1) (broadcast S256x1 n)) (broadcast S256x1 e))) broadcasts_S256x1_S256x1024)) (broadcastTo S256x1024 g broadcasts_S1x1024_S256x1024))
        (broadcastTo S256x1024 b broadcasts_S1x1024_S256x1024)) p
      = scaleRow n e (rowOf g) (rowOf b) (tileRow c p) := by
  funext d
  unfold tileRow scaleRow rowOf
  rw [addf_apply, mulf_apply, mulf_apply, rstd_col, row_bcast, row_bcast]
  simp only [mulf_apply]

/-- The same, read at an entry (p, d). -/
theorem scale_apply (c : FVec Ideal S256x1024 .f32) (g b : FVec Ideal S1x1024 .f32) (n e : Ideal .f32) (d : Fin 1024) :
    (addf (mulf (mulf c (broadcastTo S256x1024 (rsqrt (addf (divf (shapeCast S256x1 (multiReduction .add [1] S256 (mulf c c) 0x00000000#32 reduces_S256x1024_S256 (.inl rfl) rfl) shapeCasts_S256_S256x1) (broadcast S256x1 n)) (broadcast S256x1 e))) broadcasts_S256x1_S256x1024)) (broadcastTo S256x1024 g broadcasts_S1x1024_S256x1024))
        (broadcastTo S256x1024 b broadcasts_S1x1024_S256x1024)) (ix2 p d)
      = scaleRow n e (rowOf g) (rowOf b) (tileRow c p) d :=
  congrFun (scale_row p c g b n e) d

/-- A linear layer on the rows of a tile: the product with a weight matrix's rows plus a bias row. -/
theorem dense_row (x : FVec Ideal S256x1024 .f32) (w : FVec Ideal S1024x1024 .bf16) (bv : FVec Ideal S1x1024 .f32) :
    tileRow (addf (matmul dot_S256x1024_S1024x1024_S256x1024_1_1_0_0_n_n none (truncf .bf16 x bitsLt_bf16_f32) w (constant S256x1024 .f32 0x00000000#32))
        (broadcastTo S256x1024 bv broadcasts_S1x1024_S256x1024)) p
      = denseRow (matOf w) (rowOf bv) (tileRow x p) := by
  funext e
  simp only [tileRow, addf_apply, rows_product, truncf_apply, row_bcast]
  rfl

/-- The rectifier on a tile. -/
theorem relu_row (x : FVec Ideal S256x1024 .f32) (z : Ideal .f32) :
    tileRow (maximumf x (broadcast S256x1024 z)) p = reluRow z (tileRow x p) := rfl

/-- The sum of two tiles. -/
theorem add_row (x y : FVec Ideal S256x1024 .f32) : tileRow (addf x y) p = addRow (tileRow x p) (tileRow y p) := rfl

/-- A [1024] buffer viewed as a [1, 1024] row is that buffer. -/
theorem rowOf_vec (g : Vec Ideal S1024 .f32) :
    rowOf (shapeCast S1x1024 g shapeCasts_S1024_S1x1024 : FVec Ideal S1x1024 .f32) = vecOf g :=
  funext fun d => row_of_vec d g 0

end Cert.KernelIdeal.Tile

end
-- ==== Proof.KBlocks.lean ====
/-
  The kernel's input blocks read as the argument arrays. Grid point t is the pair (batch t / 4, query tile t % 4).
  The printed index maps, decided once over the 128 points, send it to block (t / 4, t % 4, 0) of the query, mask and
  output arrays, block (t / 4, 0, 0) of the key and value arrays, and block 0 of the weights and vectors. A block's
  element sits at block index times block size plus its coordinate inside the block, so: row p of the query (mask)
  block is row t % 4 * 256 + p of batch t / 4; the key (value) block is the whole matrix of batch t / 4; the weight
  and vector blocks are the whole arrays. The two weight arrays the kernel stages are the host's bf16 casts of the
  arguments, which are the arguments themselves on the extended reals.
-/
import proofs.«134354_j21784074125884_2_alg».proof.Proof.Gen.KernelIdeal.Frame
import proofs.«134354_j21784074125884_2_alg».proof.Proof.TileLayers
import Idealize.ShloMosaic.Lib.StableHlo.Run

set_option maxRecDepth 16384

noncomputable section

namespace Cert.KernelIdeal.Whole

open Cert.KernelIdeal Cert.KernelIdeal.Facts₀ Cert.KernelIdeal.Facts Cert.KernelIdeal.Gen Cert.KernelIdeal.Tile Cert.Spec
open Idealize.ShloMosaic Idealize.ShloMosaic.TcCoe Idealize.ShloMosaic.ValueIdx Idealize.SL.Sem

variable (m : (ℓ : Loc nD τ sig) → Buf (Elt Ideal) ℓ)

/-- The printed index maps at every grid point. -/
theorem idx_facts : ∀ t : Fin cfg0.N,
    win0_0.index t (0 : Fin 3) = t.val / 4
    ∧ win0_0.index t (1 : Fin 3) = t.val % 4
    ∧ win0_0.index t (2 : Fin 3) = 0
    ∧ win0_1.index t (0 : Fin 3) = t.val / 4
    ∧ win0_1.index t (1 : Fin 3) = 0
    ∧ win0_1.index t (2 : Fin 3) = 0
    ∧ win0_2.index t (0 : Fin 3) = t.val / 4
    ∧ win0_2.index t (1 : Fin 3) = 0
    ∧ win0_2.index t (2 : Fin 3) = 0
    ∧ win0_3.index t (0 : Fin 3) = t.val / 4
    ∧ win0_3.index t (1 : Fin 3) = t.val % 4
    ∧ win0_3.index t (2 : Fin 3) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 1) = 0
    ∧ win0_9.index t (0 : Fin 1) = 0
    ∧ win0_10.index t (0 : Fin 1) = 0
    ∧ win0_11.index t (0 : Fin 1) = 0
    ∧ win0_12.index t (0 : Fin 3) = t.val / 4
    ∧ win0_12.index t (1 : Fin 3) = t.val % 4
    ∧ win0_12.index t (2 : Fin 3) = 0 :=
  (by decide +kernel : ∀ t : Fin grid0.N, _)

/-- The batch of grid point t. -/
def batchOf (t : Fin cfg0.N) : Fin 32 := ⟨t.val / 4, by have h := t.isLt; have hN : cfg0.N = 128 := N_0; omega⟩
/-- The query position of row p of grid point t's tile. -/
def queryOf (t : Fin cfg0.N) (p : Fin 256) : Fin 1024 := ⟨t.val % 4 * 256 + p.val, by have := p.isLt; omega⟩

variable (c : Dev nD) (t : Fin cfg0.N)

/-- Row p of the query block is query row (batch, tile * 256 + p). -/
theorem q_rows (p : Fin 256) : blockRowOf (iblk m c 0 t) p = row3 (V m c main_arg0) (batchOf t) (queryOf t p) := by
  funext d
  obtain ⟨q0, q1, q2, k0, k1, k2, v0, v1, v2, m0, m1, m2, w10, w11, b10, w20, w21, b20, g10, be10, g20, be20, o0, o1, o2⟩ := idx_facts t
  show V m c main_arg0 (((cfg0.win 0).blk t).view.emb (ix3 (0 : Fin 1) p d)) = V m c main_arg0 (ix3 (batchOf t) (queryOf t p) d)
  refine congrArg (V m c main_arg0) (funext fun a => Fin.ext ?_)
  match a with
  | ⟨0, _⟩ => show win0_0.index t (0 : Fin 3) * 1 + 1 * 0 = t.val / 4; omega
  | ⟨1, _⟩ => show win0_0.index t (1 : Fin 3) * 256 + 1 * p.val = t.val % 4 * 256 + p.val; omega
  | ⟨2, _⟩ => show win0_0.index t (2 : Fin 3) * 1024 + 1 * d.val = d.val; omega

/-- Row p of the mask block is mask row (batch, tile * 256 + p). -/
theorem mask_rows (p : Fin 256) : blockRowOf (iblk m c 3 t) p = row3 (V m c main_arg3) (batchOf t) (queryOf t p) := by
  funext d
  obtain ⟨q0, q1, q2, k0, k1, k2, v0, v1, v2, m0, m1, m2, w10, w11, b10, w20, w21, b20, g10, be10, g20, be20, o0, o1, o2⟩ := idx_facts t
  show V m c main_arg3 (((cfg0.win 3).blk t).view.emb (ix3 (0 : Fin 1) p d)) = V m c main_arg3 (ix3 (batchOf t) (queryOf t p) d)
  refine congrArg (V m c main_arg3) (funext fun a => Fin.ext ?_)
  match a with
  | ⟨0, _⟩ => show win0_3.index t (0 : Fin 3) * 1 + 1 * 0 = t.val / 4; omega
  | ⟨1, _⟩ => show win0_3.index t (1 : Fin 3) * 256 + 1 * p.val = t.val % 4 * 256 + p.val; omega
  | ⟨2, _⟩ => show win0_3.index t (2 : Fin 3) * 1024 + 1 * d.val = d.val; omega

/-- The key block is the key matrix of the batch. -/
theorem k_mat : (fun k d => iblk m c 1 t (ix3 (0 : Fin 1) k d)) = mat3 (V m c main_arg1) (batchOf t) := by
  funext k d
  obtain ⟨q0, q1, q2, k0, k1, k2, v0, v1, v2, m0, m1, m2, w10, w11, b10, w20, w21, b20, g10, be10, g20, be20, o0, o1, o2⟩ := idx_facts t
  show V m c main_arg1 (((cfg0.win 1).blk t).view.emb (ix3 (0 : Fin 1) k d)) = V m c main_arg1 (ix3 (batchOf t) k d)
  refine congrArg (V m c main_arg1) (funext fun a => Fin.ext ?_)
  match a with
  | ⟨0, _⟩ => show win0_1.index t (0 : Fin 3) * 1 + 1 * 0 = t.val / 4; omega
  | ⟨1, _⟩ => show win0_1.index t (1 : Fin 3) * 1024 + 1 * k.val = k.val; omega
  | ⟨2, _⟩ => show win0_1.index t (2 : Fin 3) * 1024 + 1 * d.val = d.val; omega

/-- The value block is the value matrix of the batch. -/
theorem v_mat : (fun k d => iblk m c 2 t (ix3 (0 : Fin 1) k d)) = mat3 (V m c main_arg2) (batchOf t) := by
  funext k d
  obtain ⟨q0, q1, q2, k0, k1, k2, v0, v1, v2, m0, m1, m2, w10, w11, b10, w20, w21, b20, g10, be10, g20, be20, o0, o1, o2⟩ := idx_facts t
  show V m c main_arg2 (((cfg0.win 2).blk t).view.emb (ix3 (0 : Fin 1) k d)) = V m c main_arg2 (ix3 (batchOf t) k d)
  refine congrArg (V m c main_arg2) (funext fun a => Fin.ext ?_)
  match a with
  | ⟨0, _⟩ => show win0_2.index t (0 : Fin 3) * 1 + 1 * 0 = t.val / 4; omega
  | ⟨1, _⟩ => show win0_2.index t (1 : Fin 3) * 1024 + 1 * k.val = k.val; omega
  | ⟨2, _⟩ => show win0_2.index t (2 : Fin 3) * 1024 + 1 * d.val = d.val; omega

/-- The first weight block is the staged first weight array. -/
theorem w1_mat : matOf (iblk m c 4 t) = mat2 (V m c main_v0) := by
  funext e d
  obtain ⟨q0, q1, q2, k0, k1, k2, v0, v1, v2, m0, m1, m2, w10, w11, b10, w20, w21, b20, g10, be10, g20, be20, o0, o1, o2⟩ := idx_facts t
  show V m c main_v0 (((cfg0.win 4).blk t).view.emb (ix2 e d)) = V m c main_v0 (ix2 e d)
  refine congrArg (V m c main_v0) (funext fun a => Fin.ext ?_)
  match a with
  | ⟨0, _⟩ => show win0_4.index t (0 : Fin 2) * 1024 + 1 * e.val = e.val; omega
  | ⟨1, _⟩ => show win0_4.index t (1 : Fin 2) * 1024 + 1 * d.val = d.val; omega

/-- The second weight block is the staged second weight array. -/
theorem w2_mat : matOf (iblk m c 6 t) = mat2 (V m c main_v1) := by
  funext e d
  obtain ⟨q0, q1, q2, k0, k1, k2, v0, v1, v2, m0, m1, m2, w10, w11, b10, w20, w21, b20, g10, be10, g20, be20, o0, o1, o2⟩ := idx_facts t
  show V m c main_v1 (((cfg0.win 6).blk t).view.emb (ix2 e d)) = V m c main_v1 (ix2 e d)
  refine congrArg (V m c main_v1) (funext fun a => Fin.ext ?_)
  match a with
  | ⟨0, _⟩ => show win0_6.index t (0 : Fin 2) * 1024 + 1 * e.val = e.val; omega
  | ⟨1, _⟩ => show win0_6.index t (1 : Fin 2) * 1024 + 1 * d.val = d.val; omega

/-- The block of window 5 is the whole vector. -/
theorem vec5 : vecOf (iblk m c 5 t) = row1 (V m c main_arg5) := by
  funext d
  obtain ⟨q0, q1, q2, k0, k1, k2, v0, v1, v2, m0, m1, m2, w10, w11, b10, w20, w21, b20, g10, be10, g20, be20, o0, o1, o2⟩ := idx_facts t
  show V m c main_arg5 (((cfg0.win 5).blk t).view.emb (ix1 d)) = V m c main_arg5 (ix1 d)
  refine congrArg (V m c main_arg5) (funext fun a => Fin.ext ?_)
  match a with
  | ⟨0, _⟩ => show win0_5.index t (0 : Fin 1) * 1024 + 1 * d.val = d.val; omega

/-- The block of window 7 is the whole vector. -/
theorem vec7 : vecOf (iblk m c 7 t) = row1 (V m c main_arg7) := by
  funext d
  obtain ⟨q0, q1, q2, k0, k1, k2, v0, v1, v2, m0, m1, m2, w10, w11, b10, w20, w21, b20, g10, be10, g20, be20, o0, o1, o2⟩ := idx_facts t
  show V m c main_arg7 (((cfg0.win 7).blk t).view.emb (ix1 d)) = V m c main_arg7 (ix1 d)
  refine congrArg (V m c main_arg7) (funext fun a => Fin.ext ?_)
  match a with
  | ⟨0, _⟩ => show win0_7.index t (0 : Fin 1) * 1024 + 1 * d.val = d.val; omega

/-- The block of window 8 is the whole vector. -/
theorem vec8 : vecOf (iblk m c 8 t) = row1 (V m c main_arg8) := by
  funext d
  obtain ⟨q0, q1, q2, k0, k1, k2, v0, v1, v2, m0, m1, m2, w10, w11, b10, w20, w21, b20, g10, be10, g20, be20, o0, o1, o2⟩ := idx_facts t
  show V m c main_arg8 (((cfg0.win 8).blk t).view.emb (ix1 d)) = V m c main_arg8 (ix1 d)
  refine congrArg (V m c main_arg8) (funext fun a => Fin.ext ?_)
  match a with
  | ⟨0, _⟩ => show win0_8.index t (0 : Fin 1) * 1024 + 1 * d.val = d.val; omega

/-- The block of window 9 is the whole vector. -/
theorem vec9 : vecOf (iblk m c 9 t) = row1 (V m c main_arg9) := by
  funext d
  obtain ⟨q0, q1, q2, k0, k1, k2, v0, v1, v2, m0, m1, m2, w10, w11, b10, w20, w21, b20, g10, be10, g20, be20, o0, o1, o2⟩ := idx_facts t
  show V m c main_arg9 (((cfg0.win 9).blk t).view.emb (ix1 d)) = V m c main_arg9 (ix1 d)
  refine congrArg (V m c main_arg9) (funext fun a => Fin.ext ?_)
  match a with
  | ⟨0, _⟩ => show win0_9.index t (0 : Fin 1) * 1024 + 1 * d.val = d.val; omega

/-- The block of window 10 is the whole vector. -/
theorem vec10 : vecOf (iblk m c 10 t) = row1 (V m c main_arg10) := by
  funext d
  obtain ⟨q0, q1, q2, k0, k1, k2, v0, v1, v2, m0, m1, m2, w10, w11, b10, w20, w21, b20, g10, be10, g20, be20, o0, o1, o2⟩ := idx_facts t
  show V m c main_arg10 (((cfg0.win 10).blk t).view.emb (ix1 d)) = V m c main_arg10 (ix1 d)
  refine congrArg (V m c main_arg10) (funext fun a => Fin.ext ?_)
  match a with
  | ⟨0, _⟩ => show win0_10.index t (0 : Fin 1) * 1024 + 1 * d.val = d.val; omega

/-- The block of window 11 is the whole vector. -/
theorem vec11 : vecOf (iblk m c 11 t) = row1 (V m c main_arg11) := by
  funext d
  obtain ⟨q0, q1, q2, k0, k1, k2, v0, v1, v2, m0, m1, m2, w10, w11, b10, w20, w21, b20, g10, be10, g20, be20, o0, o1, o2⟩ := idx_facts t
  show V m c main_arg11 (((cfg0.win 11).blk t).view.emb (ix1 d)) = V m c main_arg11 (ix1 d)
  refine congrArg (V m c main_arg11) (funext fun a => Fin.ext ?_)
  match a with
  | ⟨0, _⟩ => show win0_11.index t (0 : Fin 1) * 1024 + 1 * d.val = d.val; omega

/-- The staged first weight array is the host's bf16 cast of the argument: the argument itself, entry by entry. -/
theorem staged_w1 : mat2 (V m c main_v0) = mat2 (m ((c : Thread nD τ).loc main_arg4)) := by
  have e : @Eq (S1024x1024.Idx → EReal) (V m c main_v0) (fun i => m ((c : Thread nD τ).loc main_arg4) i) := by
    dsimp only [Gen.V, Gen.hostOps0]; after_results; rfl
  funext k d
  exact congrFun e (ix2 k d)

/-- The staged second weight array is the host's bf16 cast of the argument: the argument itself, entry by entry. -/
theorem staged_w2 : mat2 (V m c main_v1) = mat2 (m ((c : Thread nD τ).loc main_arg6)) := by
  have e : @Eq (S1024x1024.Idx → EReal) (V m c main_v1) (fun i => m ((c : Thread nD τ).loc main_arg6) i) := by
    dsimp only [Gen.V, Gen.hostOps0]; after_results; rfl
  funext k d
  exact congrFun e (ix2 k d)

end Cert.KernelIdeal.Whole

end
-- ==== Proof.Pieces.lean ====
/-
  What each case of the kernel body leaves behind, as the body's own arithmetic.
  The body has two cases. At the first query tile of a batch it copies the batch's key and value matrices (narrowed to
  bf16) into two buffers it keeps between grid points, then reads them back; at the other tiles it reads what the
  earlier point left there. In both cases the one store to the output tile holds the same composition of the body's
  pure terms: the final layer norm's scale and shift applied to the twice-centred rows, over the attention term of
  the query tile, the mask tile and the two kept matrices. Stated for any float instance.
-/
import proofs.«134354_j21784074125884_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F] [Named F]

/-- The zero offsets of a rank-1, rank-2 and rank-3 whole-shape rectangle. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- In the first-tile case the key buffer ends holding the narrowed key matrix of the batch. -/
theorem sout_A_0 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x256x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S1024 .f32) (harg12 : arg12.IsWhole) (arg13 : Memref sig .tc .vmem S1024 .f32) (harg13 : arg13.IsWhole) (arg14 : Memref sig .tc .vmem S1x256x1024 .f32) (harg14 : arg14.IsWhole) (arg15 : Memref sig .tc .vmem S1024x1024 .bf16) (harg15 : arg15.IsWhole) (arg16 : Memref sig .tc .vmem S1024x1024 .bf16) (harg16 : arg16.IsWhole) (hc0 : cond0_0 i) (x0 : Vec F S1x256x1024 .f32) (x1 : Vec F S1x1024x1024 .f32) (x2 : Vec F S1x1024x1024 .f32) (x3 : Vec F S1x256x1024 .f32) (x4 : Vec F S1024x1024 .bf16) (x5 : Vec F S1024 .f32) (x6 : Vec F S1024x1024 .bf16) (x7 : Vec F S1024 .f32) (x8 : Vec F S1024 .f32) (x9 : Vec F S1024 .f32) (x10 : Vec F S1024 .f32) (x11 : Vec F S1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = k0_pay2 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_unit_zero (S := S1024x1024) hz2]
  simp only [View.readAt_eq_ld, harg3.read_unread, View.ld_unit_zero (S := S1x1024x1024) hz3]

/-- In the first-tile case the value buffer ends holding the narrowed value matrix of the batch. -/
theorem sout_A_1 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x256x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S1024 .f32) (harg12 : arg12.IsWhole) (arg13 : Memref sig .tc .vmem S1024 .f32) (harg13 : arg13.IsWhole) (arg14 : Memref sig .tc .vmem S1x256x1024 .f32) (harg14 : arg14.IsWhole) (arg15 : Memref sig .tc .vmem S1024x1024 .bf16) (harg15 : arg15.IsWhole) (arg16 : Memref sig .tc .vmem S1024x1024 .bf16) (harg16 : arg16.IsWhole) (hc0 : cond0_0 i) (x0 : Vec F S1x256x1024 .f32) (x1 : Vec F S1x1024x1024 .f32) (x2 : Vec F S1x1024x1024 .f32) (x3 : Vec F S1x256x1024 .f32) (x4 : Vec F S1024x1024 .bf16) (x5 : Vec F S1024 .f32) (x6 : Vec F S1024x1024 .bf16) (x7 : Vec F S1024 .f32) (x8 : Vec F S1024 .f32) (x9 : Vec F S1024 .f32) (x10 : Vec F S1024 .f32) (x11 : Vec F S1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = k0_pay3 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_unit_zero (S := S1024x1024) hz2]
  simp only [View.readAt_eq_ld, harg4.read_unread, View.ld_unit_zero (S := S1x1024x1024) hz3]

/-- The output tile as a function of the query tile `q`, the mask tile `mk`, the two kept matrices and the weights. -/
abbrev tileOut (q mk : Vec F S1x256x1024 .f32) (kk vv : FVec F S1024x1024 .bf16) (w1 : Vec F S1024x1024 .bf16) (b1 : Vec F S1024 .f32)
    (w2 : Vec F S1024x1024 .bf16) (b2 g1 be1 g2 be2 : Vec F S1024 .f32) : FVec F S1x256x1024 .f32 :=
  k0_pay1 (k0_pay7 g2) (k0_pay8 be2) (k0_pay9 (k0_pay4 g1) (k0_pay5 be1) (k0_pay6 q mk kk vv) w1 w2 b1 b2)
    (k0_pay10 (k0_pay4 g1) (k0_pay5 be1) (k0_pay6 q mk kk vv) w1 w2 b1 b2)

/-- First-tile case: the output tile is the body's term over the matrices just copied. -/
theorem out_A_12 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x256x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S1024 .f32) (harg12 : arg12.IsWhole) (arg13 : Memref sig .tc .vmem S1024 .f32) (harg13 : arg13.IsWhole) (arg14 : Memref sig .tc .vmem S1x256x1024 .f32) (harg14 : arg14.IsWhole) (arg15 : Memref sig .tc .vmem S1024x1024 .bf16) (harg15 : arg15.IsWhole) (arg16 : Memref sig .tc .vmem S1024x1024 .bf16) (harg16 : arg16.IsWhole) (hc0 : cond0_0 i) (x0 : Vec F S1x256x1024 .f32) (x1 : Vec F S1x1024x1024 .f32) (x2 : Vec F S1x1024x1024 .f32) (x3 : Vec F S1x256x1024 .f32) (x4 : Vec F S1024x1024 .bf16) (x5 : Vec F S1024 .f32) (x6 : Vec F S1024x1024 .bf16) (x7 : Vec F S1024 .f32) (x8 : Vec F S1024 .f32) (x9 : Vec F S1024 .f32) (x10 : Vec F S1024 .f32) (x11 : Vec F S1024 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = tileOut x0 x3 (k0_pay2 x1) (k0_pay3 x2) x4 x5 x6 x7 x8 x9 x10 x11 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_unit_zero (S := S1x256x1024) hz3]
  simp only [View.readCov_unit_zero (S := S1024x1024) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x256x1024) hz3, View.ld_unit_zero (S := S1x1024x1024) hz3, View.ld_unit_zero (S := S1024x1024) hz2, View.ld_unit_zero (S := S1024) hz1]

/-- Later-tile case: the output tile is the same term over the matrices the earlier point left. -/
theorem out_B_12 (c : Dev nD) (i : grid0.Coords) (arg2 : Memref sig .tc .vmem S1x256x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x256x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024 .f32) (harg10 : arg10.IsWhole) (arg11 : Memref sig .tc .vmem S1024 .f32) (harg11 : arg11.IsWhole) (arg12 : Memref sig .tc .vmem S1024 .f32) (harg12 : arg12.IsWhole) (arg13 : Memref sig .tc .vmem S1024 .f32) (harg13 : arg13.IsWhole) (arg14 : Memref sig .tc .vmem S1x256x1024 .f32) (harg14 : arg14.IsWhole) (arg15 : Memref sig .tc .vmem S1024x1024 .bf16) (harg15 : arg15.IsWhole) (arg16 : Memref sig .tc .vmem S1024x1024 .bf16) (harg16 : arg16.IsWhole) (hc0 : ¬cond0_0 i) (x0 : Vec F S1x256x1024 .f32) (x1 : Vec F S1x1024x1024 .f32) (x2 : Vec F S1x1024x1024 .f32) (x3 : Vec F S1x256x1024 .f32) (x4 : Vec F S1024x1024 .bf16) (x5 : Vec F S1024 .f32) (x6 : Vec F S1024x1024 .bf16) (x7 : Vec F S1024 .f32) (x8 : Vec F S1024 .f32) (x9 : Vec F S1024 .f32) (x10 : Vec F S1024 .f32) (x11 : Vec F S1024 .f32) (xs0 xs1 : Vec F S1024x1024 .bf16) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1 = tileOut x0 x3 xs0 xs1 x4 x5 x6 x7 x8 x9 x10 x11 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 xs1)]
  unfold kernelRun0_B
  dsimp only
  sl_unfold_words
  rw [View.canon_unit_zero (S := S1x256x1024) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S1x256x1024) hz3, View.ld_unit_zero (S := S1x1024x1024) hz3, View.ld_unit_zero (S := S1024x1024) hz2, View.ld_unit_zero (S := S1024) hz1]

end Cert.KernelIdeal.Pieces

end
-- ==== Proof.KScratch.lean ====
/-
  What the two kept buffers hold. The kernel copies a batch's key and value matrices into two buffers at the batch's
  first query tile and leaves them untouched at its other three tiles. So after every grid point the buffers hold the
  key and the value matrix of that point's batch: at a first tile because they were just copied from the blocks staged
  there, at a later tile because the point before it belongs to the same batch.
-/
import proofs.«134354_j21784074125884_2_alg».proof.Proof.KBlocks
import proofs.«134354_j21784074125884_2_alg».proof.Proof.Pieces

set_option maxRecDepth 16384

noncomputable section

namespace Cert.KernelIdeal.Whole

open Cert.KernelIdeal Cert.KernelIdeal.Facts₀ Cert.KernelIdeal.Facts Cert.KernelIdeal.Gen Cert.KernelIdeal.Tile Cert.Spec
open Idealize.ShloMosaic Idealize.ShloMosaic.TcCoe Idealize.ShloMosaic.ValueIdx Idealize.SL.Sem

/-- The narrowed copy of a [1, 1024, 1024] block, as a matrix, is the block's one slab. -/
theorem pay2_mat (x : Vec Ideal S1x1024x1024 .f32) : matOf (k0_pay2 x) = fun k d => x (ix3 (0 : Fin 1) k d) := by
  unfold k0_pay2
  dsimp only
  rw [shapeCast_self]
  funext k d
  exact shapeCast_1ab_ab_apply x Gen.shapeCasts_S1x1024x1024_S1024x1024 k d

theorem pay3_mat (x : Vec Ideal S1x1024x1024 .f32) : matOf (k0_pay3 x) = fun k d => x (ix3 (0 : Fin 1) k d) := by
  unfold k0_pay3
  dsimp only
  rw [shapeCast_self]
  funext k d
  exact shapeCast_1ab_ab_apply x Gen.shapeCasts_S1x1024x1024_S1024x1024 k d

variable (m : (ℓ : Loc nD τ sig) → Buf (Elt Ideal) ℓ) (c : Dev nD)

/-- After every grid point the kept buffers hold the key and value matrices of the point's batch. -/
theorem kept_inv : ∀ (n : ℕ) (hn : n < cfg0.N),
    matOf (outsAt0 m c n hn).2.1 = mat3 (V m c main_arg1) (batchOf ⟨n, hn⟩)
      ∧ matOf (outsAt0 m c n hn).2.2 = mat3 (V m c main_arg2) (batchOf ⟨n, hn⟩)
  | 0, hn => by
    have h0 : (⟨0, hn⟩ : Fin cfg0.N).val % 4 = 0 := Nat.zero_mod _
    rw [outsAt0_A m c ⟨0, hn⟩ h0]
    dsimp only
    rw [Pieces.sout_A_0 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩),
      Pieces.sout_A_1 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩),
      pay2_mat, pay3_mat, k_mat, v_mat]
    exact ⟨rfl, rfl⟩
  | n + 1, hn => by
    by_cases h0 : (⟨n + 1, hn⟩ : Fin cfg0.N).val % 4 = 0
    · rw [outsAt0_A m c ⟨n + 1, hn⟩ h0]
      dsimp only
      rw [Pieces.sout_A_0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩),
        Pieces.sout_A_1 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩),
        pay2_mat, pay3_mat, k_mat, v_mat]
      exact ⟨rfl, rfl⟩
    · have ih := kept_inv n (Nat.lt_of_succ_lt hn)
      have hb : batchOf ⟨n + 1, hn⟩ = batchOf ⟨n, Nat.lt_of_succ_lt hn⟩ :=
        Fin.ext (by show (n + 1) / 4 = n / 4; have : (n + 1) % 4 ≠ 0 := h0; omega)
      rw [outsAt0_B m c ⟨n + 1, hn⟩ h0, hb]
      exact ih

end Cert.KernelIdeal.Whole

end
-- ==== Proof.TileValue.lean ====
/-
  The kernel's output tile is the block applied to each query row of the tile.
  The body's arithmetic comes in three pure terms: the attention term (scores, softmax, mixing with the values, and
  the first centring), the feed-forward term (the first norm's scale and shift, the two linear layers with the
  rectifier between them, the residual sum and the second centring) and the final scale and shift. Each is unfolded
  once and rewritten, stage by stage from the outside in, into the row functions of the specification; the kernel's
  named scale denotes the rational of the certificate's table.
-/
import proofs.«134354_j21784074125884_2_alg».proof.Proof.Gen.KernelIdeal.Skeleton
import proofs.«134354_j21784074125884_2_alg».proof.Proof.TileLayers
import proofs.«134354_j21784074125884_2_alg».proof.Proof.Pieces
import Idealize.ShloMosaic.PureOps.IdealRules

set_option maxRecDepth 16384

noncomputable section

open scoped BigOperators

namespace Cert.KernelIdeal.Tile

open Cert.KernelIdeal Cert.KernelIdeal.Facts₀ Cert.KernelIdeal.Facts Cert.KernelIdeal.Gen Cert.Spec Cert.Consts Idealize.ShloMosaic Idealize.ShloMosaic.ValueIdx

/-- The kernel's named scale denotes the rational of the certificate's table. -/
theorem scale_named : Named.named (F := Ideal) κ "attn_scale" (φ := .f32) 0x3D000000#32 = cScale :=
  IdealRules.named_const.ideal_named_scalar _ _ _ _ rfl

variable (p : Fin 256)

/-- The attention term: row p is the centred mix of the query row with its softmax-weighted values. -/
theorem pay6_row (q mk : Vec Ideal S1x256x1024 .f32) (kk vv : FVec Ideal S1024x1024 .bf16) :
    tileRow (k0_pay6 q mk kk vv) p
      = centredRow cN (mixRow (blockRowOf q p) (softmaxRow cStart (scoreRow cScale (blockRowOf q p) (matOf kk) (blockRowOf mk p)))
          (matOf vv)) := by
  unfold k0_pay6
  dsimp only
  rw [centre_row, mix_row, softmax_row, scores_row, scale_named]
  rfl

/-- The feed-forward term over a centred tile c: with X the scaled and shifted c, row p is the centred
    W2 relu (W1 X + b1) + b2 + X. -/
theorem pay9_row (g be : FVec Ideal S1x1024 .f32) (c : FVec Ideal S256x1024 .f32) (w1 w2 : Vec Ideal S1024x1024 .bf16)
    (b1 b2 : Vec Ideal S1024 .f32) :
    tileRow (k0_pay9 g be c w1 w2 b1 b2) p
      = centredRow cN (addRow (denseRow (matOf w2) (vecOf b2) (reluRow cZero (denseRow (matOf w1) (vecOf b1)
            (scaleRow cN cEps (rowOf g) (rowOf be) (tileRow c p)))))
          (scaleRow cN cEps (rowOf g) (rowOf be) (tileRow c p))) := by
  unfold k0_pay9
  dsimp only
  rw [centre_row, add_row, dense_row, relu_row, dense_row, scale_row, shapeCast_self, shapeCast_self, rowOf_vec, rowOf_vec]
  rfl

/-- The output tile at (u, p, d): entry d of the block applied to query row p of the tile. -/
theorem tileOut_apply (q mk : Vec Ideal S1x256x1024 .f32) (kk vv : FVec Ideal S1024x1024 .bf16) (w1 : Vec Ideal S1024x1024 .bf16)
    (b1 : Vec Ideal S1024 .f32) (w2 : Vec Ideal S1024x1024 .bf16) (b2 g1 be1 g2 be2 : Vec Ideal S1024 .f32) (u : Fin 1) (d : Fin 1024) :
    Pieces.tileOut q mk kk vv w1 b1 w2 b2 g1 be1 g2 be2 (ix3 u p d)
      = blockRow cScale cStart cN cEps cZero (blockRowOf q p) (blockRowOf mk p) (matOf kk) (matOf vv) (matOf w1) (matOf w2)
          (vecOf b1) (vecOf b2) (vecOf g1) (vecOf be1) (vecOf g2) (vecOf be2) d := by
  unfold Pieces.tileOut k0_pay1 k0_pay10 k0_pay7 k0_pay8 k0_pay4 k0_pay5
  dsimp only
  rw [block_of_tile, scale_apply, pay9_row, pay6_row, rowOf_vec, rowOf_vec, rowOf_vec, rowOf_vec]
  rfl

end Cert.KernelIdeal.Tile

end
-- ==== Proof.KFinal.lean ====
/-
  The kernel's result array. What grid point t writes back is the body's output tile, which is the block applied to
  each query row of the tile over the key and value matrices the kept buffers hold: the matrices of t's batch. Read
  through the point's output block (batch t / 4, rows t % 4 * 256 ..), that is the whole-array function G of the
  arguments restricted to the block. The 128 blocks cover the array (entry (b, q, d) is in the block of point
  4 b + q / 256), so the array ends holding G of the arguments.
-/
import proofs.«134354_j21784074125884_2_alg».proof.Proof.KScratch
import proofs.«134354_j21784074125884_2_alg».proof.Proof.TileValue
import proofs.«134354_j21784074125884_2_alg».proof.Proof.Gen.KernelIdeal.Value

set_option maxRecDepth 16384

noncomputable section

namespace Cert.KernelIdeal.Whole

open Cert.KernelIdeal Cert.KernelIdeal.Facts₀ Cert.KernelIdeal.Facts Cert.KernelIdeal.Gen Cert.KernelIdeal.Tile Cert.Spec Cert.Consts
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- G of the arrays as the region finds them (the two weight arrays as staged). -/
def Gfound : A3 :=
  G cScale cStart cN cEps cZero (V m c main_arg0) (V m c main_arg1) (V m c main_arg2) (V m c main_arg3) (V m c main_v0) (V m c main_arg5)
    (V m c main_v1) (V m c main_arg7) (V m c main_arg8) (V m c main_arg9) (V m c main_arg10) (V m c main_arg11)

/-- G of the argument arrays at launch. -/
def Gargs : A3 :=
  G cScale cStart cN cEps cZero (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The region finds the arguments as launched, and the staged weights are the weight arguments. -/
theorem Gfound_eq : Gfound m c = Gargs m c := by
  funext i
  obtain ⟨b, q, d, rfl⟩ : ∃ (b : Fin 32) (q d : Fin 1024), i = ix3 b q d := ⟨i 0, i 1, i 2, eq_ix3 i⟩
  unfold Gfound Gargs
  rw [G_ix3, G_ix3, staged_w1, staged_w2, V_main_arg0, V_main_arg1, V_main_arg2, V_main_arg3, V_main_arg5, V_main_arg7,
    V_main_arg8, V_main_arg9, V_main_arg10, V_main_arg11]

/-- The output tile over kept buffers holding the batch's matrices, read through the output block, is G there. -/
theorem tile_is_block (t : Fin cfg0.N) (kk vv : FVec Ideal S1024x1024 .bf16)
    (hk : matOf kk = mat3 (V m c main_arg1) (batchOf t)) (hv : matOf vv = mat3 (V m c main_arg2) (batchOf t)) :
    (cfg0.win 12).cut (grid0.coords t) (Pieces.tileOut (iblk m c 0 t) (iblk m c 3 t) kk vv (iblk m c 4 t) (iblk m c 5 t)
        (iblk m c 6 t) (iblk m c 7 t) (iblk m c 8 t) (iblk m c 9 t) (iblk m c 10 t) (iblk m c 11 t))
      = ((cfg0.win 12).blk t).view.read (Elt Ideal) (Gfound m c) := by
  funext y
  obtain ⟨u, p, d, rfl⟩ : ∃ (u : Fin 1) (p : Fin 256) (d : Fin 1024), y = ix3 u p d := ⟨y 0, y 1, y 2, eq_ix3 y⟩
  obtain ⟨q0, q1, q2, k0, k1, k2, v0, v1, v2, m0, m1, m2, w10, w11, b10, w20, w21, b20, g10, be10, g20, be20, o0, o1, o2⟩ := idx_facts t
  have hu : u.val = 0 := by have := u.isLt; omega
  have hi : ((cfg0.win 12).blk t).view.emb (ix3 u p d) = ix3 (batchOf t) (queryOf t p) d :=
    funext fun a => Fin.ext (by
      match a with
      | ⟨0, _⟩ => show win0_12.index t (0 : Fin 3) * 1 + 1 * u.val = t.val / 4; omega
      | ⟨1, _⟩ => show win0_12.index t (1 : Fin 3) * 256 + 1 * p.val = t.val % 4 * 256 + p.val; omega
      | ⟨2, _⟩ => show win0_12.index t (2 : Fin 3) * 1024 + 1 * d.val = d.val; omega)
  show Pieces.tileOut (iblk m c 0 t) (iblk m c 3 t) kk vv (iblk m c 4 t) (iblk m c 5 t) (iblk m c 6 t) (iblk m c 7 t) (iblk m c 8 t)
      (iblk m c 9 t) (iblk m c 10 t) (iblk m c 11 t) (ix3 u p d) = Gfound m c (((cfg0.win 12).blk t).view.emb (ix3 u p d))
  rw [hi, tileOut_apply, q_rows, mask_rows, hk, hv, w1_mat, w2_mat, vec5, vec7, vec8, vec9, vec10, vec11]
  rfl

/-- WHAT POINT t WRITES BACK is block t of G of the arrays as the region finds them. -/
theorem flushed_eq (t : Fin cfg0.N) :
    (dats m 0 c).flushed 12 t = ((cfg0.win 12).blk t).view.read (Elt Ideal) (Gfound m c) := by
  by_cases h0 : t.val % 4 = 0
  · rw [Value.flushed12_A m c t h0,
      Pieces.out_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)]
    exact tile_is_block m c t _ _ ((pay2_mat _).trans (k_mat m c t)) ((pay3_mat _).trans (v_mat m c t))
  · rw [Value.flushed12_B m c t h0,
      Pieces.out_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
        (outsAt0 m c (t.val - 1) (Nat.lt_of_le_of_lt (Nat.sub_le _ _) t.isLt)).2.1
        (outsAt0 m c (t.val - 1) (Nat.lt_of_le_of_lt (Nat.sub_le _ _) t.isLt)).2.2]
    have inv := kept_inv m c (t.val - 1) (Nat.lt_of_le_of_lt (Nat.sub_le _ _) t.isLt)
    have hb : batchOf ⟨t.val - 1, Nat.lt_of_le_of_lt (Nat.sub_le _ _) t.isLt⟩ = batchOf t :=
      Fin.ext (by show (t.val - 1) / 4 = t.val / 4; omega)
    rw [hb] at inv
    exact tile_is_block m c t _ _ inv.1 inv.2

/-- An index of the array is in point t's output block iff each coordinate is in the block's range on its axis. -/
theorem mem_blk (t : Fin cfg0.N) (i : S32x1024x1024.Idx) :
    i ∈ ((cfg0.win 12).blk t).view.set ↔ ∀ a : Fin 3, win0_12.index t a * S1x256x1024.size a ≤ (i a).val
      ∧ (i a).val < win0_12.index t a * S1x256x1024.size a + S1x256x1024.size a := by
  show i ∈ ((View.whole main_v2).slice (win0_12.rect t)).set ↔ _
  rw [View.set_slice_whole, Rect.mem_set_unit]
  exact Iff.rfl

/-- Every entry (b, q, d) of the result array is in the output block of point 4 b + q / 256. -/
theorem cover (i : S32x1024x1024.Idx) :
    ∃ t : Fin cfg0.N, (cfg0.win 12).flush t = true ∧ i ∈ ((cfg0.win 12).blk t).view.set := by
  have hb : (i 0).val < 32 := (i 0).isLt
  have hq : (i 1).val < 1024 := (i 1).isLt
  have hd : (i 2).val < 1024 := (i 2).isLt
  have hN : cfg0.N = 128 := N_0
  have ht : (i 0).val * 4 + (i 1).val / 256 < cfg0.N := by omega
  refine ⟨⟨(i 0).val * 4 + (i 1).val / 256, ht⟩, flush0_12 _, ?_⟩
  rw [mem_blk]
  obtain ⟨q0, q1, q2, k0, k1, k2, v0, v1, v2, m0, m1, m2, w10, w11, b10, w20, w21, b20, g10, be10, g20, be20, o0, o1, o2⟩ := idx_facts ⟨(i 0).val * 4 + (i 1).val / 256, ht⟩
  intro a
  match a with
  | ⟨0, _⟩ =>
    show win0_12.index ⟨(i 0).val * 4 + (i 1).val / 256, ht⟩ (0 : Fin 3) * 1 ≤ (i 0).val
      ∧ (i 0).val < win0_12.index ⟨(i 0).val * 4 + (i 1).val / 256, ht⟩ (0 : Fin 3) * 1 + 1
    rw [o0]; show ((i 0).val * 4 + (i 1).val / 256) / 4 * 1 ≤ (i 0).val ∧ (i 0).val < ((i 0).val * 4 + (i 1).val / 256) / 4 * 1 + 1; omega
  | ⟨1, _⟩ =>
    show win0_12.index ⟨(i 0).val * 4 + (i 1).val / 256, ht⟩ (1 : Fin 3) * 256 ≤ (i 1).val
      ∧ (i 1).val < win0_12.index ⟨(i 0).val * 4 + (i 1).val / 256, ht⟩ (1 : Fin 3) * 256 + 256
    rw [o1]; show ((i 0).val * 4 + (i 1).val / 256) % 4 * 256 ≤ (i 1).val ∧ (i 1).val < ((i 0).val * 4 + (i 1).val / 256) % 4 * 256 + 256; omega
  | ⟨2, _⟩ =>
    show win0_12.index ⟨(i 0).val * 4 + (i 1).val / 256, ht⟩ (2 : Fin 3) * 1024 ≤ (i 2).val
      ∧ (i 2).val < win0_12.index ⟨(i 0).val * 4 + (i 1).val / 256, ht⟩ (2 : Fin 3) * 1024 + 1024
    rw [o2]; omega

/-- THE ARRAY after the run: G of the argument arrays. -/
theorem final : (dats m 0 c).arrAt 12 cfg0.N = Gargs m c :=
  ((dats m 0 c).arrAt_eq_of_cover 12 (Gfound m c) (fun t _ => flushed_eq m c t) (cover)).trans (Gfound_eq m c)

/-- The kernel's run: every weakly fair execution terminates with the result array at G of the arguments and the
    arguments unchanged. -/
theorem run : θ_run defs (onTc (τ := τ) (main (F := Ideal))) ⟨m, fun _ => 0, ρ⟩ fun r => ∀ c : Dev nD,
      r.2.mem ((c : Thread nD τ).loc main_v2) = Gargs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.Whole

end
-- ==== Proof.lean ====
/-
  The certificate of a transformer block: masked attention over a batch of 32 sequences of 1024 positions with model
  width 1024, a layer norm, a two-layer feed-forward network with a rectifier, a residual sum and a second layer norm.

  The kernel works on tiles of 256 query rows; at the first tile of a batch it copies the batch's key and value
  matrices into two buffers it keeps for the batch's other three tiles. The reference computes the same block on whole
  arrays. On the extended reals both are one function G of the twelve argument arrays: entry (b, q, d) of the result is
  entry d of the block applied to query row (b, q) — scores against the keys of batch b scaled and masked, their
  softmax, the weighted values added to the query row, the first norm, the feed-forward layers, the residual and the
  second norm (Proof/Spec.lean). No algebraic law beyond the definitions joins the two sides: every sum and maximum
  runs over a whole row on both, and narrowing to bf16 is the identity on the extended reals.

  The one constant that differs in spelling is the attention scale. The reference computes 1 / (sqrt 1024 + e) on the
  host, e the f32 pattern nearest 1e-8; the kernel carries the f32 literal 0.03125 that this expression rounds to, named
  by the certificate's table as the exact rational 2^50 / (2^55 + 11258999) the reference's expression denotes
  (Proof/Consts.lean).

  The frames of the two kernel programs are the generated frame certificates; the reference's frame is its run with
  the result dropped. The kernel's value is read off the generated frame run (Proof/KFinal.lean), the reference's off
  its run one operation at a time (Proof/RefValue.lean).
-/
import proofs.«134354_j21784074125884_2_alg».proof.Defs
import proofs.«134354_j21784074125884_2_alg».proof.Proof.Gen.Kernel
import proofs.«134354_j21784074125884_2_alg».proof.Proof.Gen.Kernel.Skeleton
import proofs.«134354_j21784074125884_2_alg».proof.Proof.Gen.Kernel.Launch
import proofs.«134354_j21784074125884_2_alg».proof.Proof.Gen.Kernel.Points
import proofs.«134354_j21784074125884_2_alg».proof.Proof.Gen.Kernel.Frame
import proofs.«134354_j21784074125884_2_alg».proof.Proof.Gen.KernelIdeal
import proofs.«134354_j21784074125884_2_alg».proof.Proof.Gen.KernelIdeal.Skeleton
import proofs.«134354_j21784074125884_2_alg».proof.Proof.Gen.KernelIdeal.Launch
import proofs.«134354_j21784074125884_2_alg».proof.Proof.Gen.KernelIdeal.Points
import proofs.«134354_j21784074125884_2_alg».proof.Proof.Gen.KernelIdeal.Frame
import proofs.«134354_j21784074125884_2_alg».proof.Proof.Gen.ReferenceIdeal
import proofs.«134354_j21784074125884_2_alg».proof.Proof.Gen.Pre_finite_inputs
import proofs.«134354_j21784074125884_2_alg».proof.Proof.Gen.KernelIdeal.Value
import proofs.«134354_j21784074125884_2_alg».proof.Proof.RefRun
import proofs.«134354_j21784074125884_2_alg».proof.Proof.RefRead
import proofs.«134354_j21784074125884_2_alg».proof.Proof.RefValue
import proofs.«134354_j21784074125884_2_alg».proof.Proof.KFinal
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The one rewrite of the idealization: the table gives the scale's name its rational value, and the printed constant
    is that value on the extended reals. -/
theorem preserves : Cert.preserves_Kernel_KernelIdeal :=
  IdealRules.named_const.statement Cert.KernelIdeal.κ "attn_scale" .f32 0x3D000000#32
    ((1125899906842624 / 36028797030222967 : ℝ) : EReal) rfl

/-- Both programs end with the result array at G of the argument arrays. -/
theorem algebraic : Cert.algebraic_KernelIdeal_ReferenceIdeal := by
  intro m ρ m' ρ' _ hagree
  refine ⟨fun c => Cert.KernelIdeal.Whole.Gargs m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11⟩ := hagree c
  rw [Cert.ReferenceIdeal.ReadP.val_main_v77_eq, Cert.ReferenceIdeal.RefValue.result_eq, a0, a1, a2, a3, a4, a5, a6, a7, a8, a9,
    a10, a11]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
